-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x1 : Shape := ⟨2, ![500000, 1]⟩
abbrev S1x16 : Shape := ⟨2, ![1, 16]⟩
abbrev S16 : Shape := ⟨1, ![16]⟩
abbrev S16x1 : Shape := ⟨2, ![16, 1]⟩
abbrev S1 : Shape := ⟨1, ![1]⟩
abbrev S2x5000000 : Shape := ⟨2, ![2, 5000000]⟩
abbrev S_ : Shape := ⟨0, ![]⟩

class Facts : Prop where
  bcast_S_S500000x1 : S_.BroadcastsInDim S500000x1 (![] : Fin 0 → Fin S500000x1.rank)
  reducesTo_S500000x1_S_d0_1 : S500000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S500000x1 .f32) (main_arg1 : FVec F S1x16 .f32) (main_arg2 : FVec F S16 .f32) (main_arg3 : FVec F S16x1 .f32) (main_arg4 : FVec F S1 .f32) (main_arg5 : IVec S2x5000000 32) : IVec S_ 1 :=
  let main_v0 : FVec F S500000x1 .f32 := Host.absf main_arg0
  let main_cst : FVec F S_ .f32 := constant S_ .f32 0x7F800000#32
  let main_v1 : FVec F S500000x1 .f32 := broadcastInDim S500000x1 ![] bcast_S_S500000x1 main_cst
  let main_v2 : IVec S500000x1 1 := cmpf .olt main_v0 main_v1
  let main_c : IVec S_ 1 := constantI S_ 1 1#1
  let main_v3 : IVec S_ 1 := (fun x v => Host.reduce IntOp.andi x v reducesTo_S500000x1_S_d0_1 h_S_) main_v2 main_c
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg3
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg4 main_v13 main_v16
-- ==== Kernel.lean ====
abbrev S500000x1 : Shape := ⟨2, ![500000, 1]⟩
abbrev S1x16 : Shape := ⟨2, ![1, 16]⟩
abbrev S16 : Shape := ⟨1, ![16]⟩
abbrev S16x1 : Shape := ⟨2, ![16, 1]⟩
abbrev S1 : Shape := ⟨1, ![1]⟩
abbrev S2x5000000 : Shape := ⟨2, ![2, 5000000]⟩
abbrev S1x5000000 : Shape := ⟨2, ![1, 5000000]⟩
abbrev S5000000 : Shape := ⟨1, ![5000000]⟩
abbrev S_ : Shape := ⟨0, ![]⟩
abbrev S500000 : Shape := ⟨1, ![500000]⟩
abbrev S5000000x1 : Shape := ⟨2, ![5000000, 1]⟩
abbrev S500000x16 : Shape := ⟨2, ![500000, 16]⟩
abbrev S5000x1 : Shape := ⟨2, ![5000, 1]⟩
abbrev S5000x16 : Shape := ⟨2, ![5000, 16]⟩
abbrev S5000000x16 : Shape := ⟨2, ![5000000, 16]⟩
abbrev S5000 : Shape := ⟨1, ![5000]⟩
abbrev S1x1 : Shape := ⟨2, ![1, 1]⟩

abbrev nBuf : Space → Nat
  | .hbm => 54
  | .vmem => 28
  | .smem => 0
  | _ => 0

abbrev bufTy : (tb : Table) → Fin (tcTables nBuf tb) → BufTy
  | .hbm, ⟨0, _⟩ => ⟨S500000x1, .f32⟩
  | .hbm, ⟨1, _⟩ => ⟨S1x16, .f32⟩
  | .hbm, ⟨2, _⟩ => ⟨S16, .f32⟩
  | .hbm, ⟨3, _⟩ => ⟨S16x1, .f32⟩
  | .hbm, ⟨4, _⟩ => ⟨S1, .f32⟩
  | .hbm, ⟨5, _⟩ => ⟨S2x5000000, .i32⟩
  | .hbm, ⟨6, _⟩ => ⟨S1x5000000, .i32⟩
  | .hbm, ⟨7, _⟩ => ⟨S5000000, .i32⟩
  | .hbm, ⟨8, _⟩ => ⟨S1x5000000, .i32⟩
  | .hbm, ⟨9, _⟩ => ⟨S5000000, .i32⟩
  | .hbm, ⟨10, _⟩ => ⟨S_, .f32⟩
  | .hbm, ⟨11, _⟩ => ⟨S5000000, .f32⟩
  | .hbm, ⟨12, _⟩ => ⟨S_, .f32⟩
  | .hbm, ⟨13, _⟩ => ⟨S500000, .f32⟩
  | .hbm, ⟨14, _⟩ => ⟨S5000000x1, .i32⟩
  | .hbm, ⟨15, _⟩ => ⟨S500000, .f32⟩
  | .hbm, ⟨16, _⟩ => ⟨S_, .f32⟩
  | .hbm, ⟨17, _⟩ => ⟨S500000, .f32⟩
  | .hbm, ⟨18, _⟩ => ⟨S500000, .f32⟩
  | .hbm, ⟨19, _⟩ => ⟨S500000x1, .f32⟩
  | .hbm, ⟨20, _⟩ => ⟨S500000x1, .f32⟩
  | .hbm, ⟨21, _⟩ => ⟨S500000x16, .f32⟩
  | .hbm, ⟨22, _⟩ => ⟨S_, .i32⟩
  | .hbm, ⟨23, _⟩ => ⟨S5000000, .i32⟩
  | .hbm, ⟨24, _⟩ => ⟨S5000000, .i1⟩
  | .hbm, ⟨25, _⟩ => ⟨S_, .i32⟩
  | .hbm, ⟨26, _⟩ => ⟨S5000000, .i32⟩
  | .hbm, ⟨27, _⟩ => ⟨S5000000, .i32⟩
  | .hbm, ⟨28, _⟩ => ⟨S5000000, .i32⟩
  | .hbm, ⟨29, _⟩ => ⟨S5000000x1, .i32⟩
  | .hbm, ⟨30, _⟩ => ⟨S5000000x16, .f32⟩
  | .hbm, ⟨31, _⟩ => ⟨S_, .f32⟩
  | .hbm, ⟨32, _⟩ => ⟨S500000x16, .f32⟩
  | .hbm, ⟨33, _⟩ => ⟨S5000000x1, .i32⟩
  | .hbm, ⟨34, _⟩ => ⟨S500000x16, .f32⟩
  | .hbm, ⟨35, _⟩ => ⟨S1x16, .f32⟩
  | .hbm, ⟨36, _⟩ => ⟨S1x16, .f32⟩
  | .hbm, ⟨37, _⟩ => ⟨S500000x1, .f32⟩
  | .hbm, ⟨38, _⟩ => ⟨S_, .i32⟩
  | .hbm, ⟨39, _⟩ => ⟨S5000000, .i32⟩
  | .hbm, ⟨40, _⟩ => ⟨S5000000, .i1⟩
  | .hbm, ⟨41, _⟩ => ⟨S_, .i32⟩
  | .hbm, ⟨42, _⟩ => ⟨S5000000, .i32⟩
  | .hbm, ⟨43, _⟩ => ⟨S5000000, .i32⟩
  | .hbm, ⟨44, _⟩ => ⟨S5000000, .i32⟩
  | .hbm, ⟨45, _⟩ => ⟨S5000000x1, .i32⟩
  | .hbm, ⟨46, _⟩ => ⟨S5000000x1, .f32⟩
  | .hbm, ⟨47, _⟩ => ⟨S_, .f32⟩
  | .hbm, ⟨48, _⟩ => ⟨S500000x1, .f32⟩
  | .hbm, ⟨49, _⟩ => ⟨S5000000x1, .i32⟩
  | .hbm, ⟨50, _⟩ => ⟨S500000x1, .f32⟩
  | .hbm, ⟨51, _⟩ => ⟨S1x1, .f32⟩
  | .hbm, ⟨52, _⟩ => ⟨S500000x1, .f32⟩
  | .hbm, ⟨53, _⟩ => ⟨S500000, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S1x16, .f32⟩
  | .local _ .vmem, ⟨5, _⟩ => ⟨S5000x1, .f32⟩
  | .local _ .vmem, ⟨6, _⟩ => ⟨S5000x1, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x1, .f32⟩
  | .local _ .vmem, ⟨14, _⟩ => ⟨S5000x1, .f32⟩
  | .local _ .vmem, ⟨15, _⟩ => ⟨S1x16, .f32⟩
  | .local _ .vmem, ⟨16, _⟩ => ⟨S1x16, .f32⟩
  | .local _ .vmem, ⟨17, _⟩ => ⟨S5000x1, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S5000x1, .f32⟩
  | .local _ .vmem, ⟨22, _⟩ => ⟨S5000x1, .f32⟩
  | .local _ .vmem, ⟨23, _⟩ => ⟨S5000x1, .f32⟩
  | .local _ .vmem, ⟨24, _⟩ => ⟨S5000x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S500000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  bcast_S_S5000000 : S_.BroadcastsInDim S5000000 (![] : Fin 0 → Fin S5000000.rank)
  bcast_S_S500000 : S_.BroadcastsInDim S500000 (![] : Fin 0 → Fin S500000.rank)
  bcast_S5000000_S5000000x1_0 : S5000000.BroadcastsInDim S5000000x1 (![0] : Fin 1 → Fin S5000000x1.rank)
  shapeCasts_S500000_S500000x1 : S500000.ShapeCasts S500000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x16_S1x16_0_0 : ∀ a, (![0, 0] : Fin 2 → Nat) a + S1x16.size a ≤ S1x16.size a
  h_S1x16 : 0 < S1x16.numel
  broadcasts_S5000x1_S5000x16 : S5000x1.Broadcasts S5000x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S500000x16 : S_.BroadcastsInDim S500000x16 (![] : Fin 0 → Fin S500000x16.rank)
  shapeCasts_S16_S1x16 : S16.ShapeCasts S1x16
  shapeCasts_S16x1_S1x16 : S16x1.ShapeCasts S1x16
  shapeCasts_S5000x16_S5000x16 : S5000x16.ShapeCasts S5000x16
  shapeCasts_S1x16_S1x16 : S1x16.ShapeCasts S1x16
  reduces_S5000x16_S5000 : S5000x16.Reduces [1] S5000
  shapeCasts_S5000_S5000x1 : S5000.ShapeCasts S5000x1
  bcast_S_S500000x1 : S_.BroadcastsInDim S500000x1 (![] : Fin 0 → Fin S500000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S500000x1_S500000 : S500000x1.ShapeCasts S500000
  scatter_S500000_S5000000x1_S5000000_n_0_0_1_wf : ScatterDims.WF S500000 S5000000x1 S5000000 [] [0] [0] 1
  gather_S500000x16_S5000000x1_S5000000x16_1_0_n_n_0_1_116_wf : GatherDims.WF S500000x16 S5000000x1 S5000000x16 [1] [0] [] [0] [] 1 ![1, 16]
  scatter_S500000x16_S5000000x1_S5000000x16_1_0_0_1_wf : ScatterDims.WF S500000x16 S5000000x1 S5000000x16 [1] [0] [0] 1
  gather_S500000x1_S5000000x1_S5000000x1_1_0_n_n_0_1_11_wf : GatherDims.WF S500000x1 S5000000x1 S5000000x1 [1] [0] [] [0] [] 1 ![1, 1]
  scatter_S500000x1_S5000000x1_S5000000x1_1_0_0_1_wf : ScatterDims.WF S500000x1 S5000000x1 S5000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S500000x1.size a
  hwx0_0 : ∀ i : grid0.Coords, EltTy.bits .f32 = 32 ∨ (Rect.block (s := S500000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S500000x1.size a
  hwx0_1 : ∀ i : grid0.Coords, EltTy.bits .f32 = 32 ∨ (Rect.block (s := S500000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S500000x1.size a
  hwx0_3 : ∀ i : grid0.Coords, EltTy.bits .f32 = 32 ∨ (Rect.block (s := S500000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x16.size a ≤ S500000x16.size a
  hwx0_4 : ∀ i : grid0.Coords, EltTy.bits .f32 = 32 ∨ (Rect.block (s := S500000x16) S5000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S500000x16.size a
  hwx1_0 : ∀ i : grid1.Coords, EltTy.bits .f32 = 32 ∨ (Rect.block (s := S500000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S500000x16.size a
  hwx1_1 : ∀ i : grid1.Coords, EltTy.bits .f32 = 32 ∨ (Rect.block (s := S500000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S500000x1.size a
  hwx1_2 : ∀ i : grid1.Coords, EltTy.bits .f32 = 32 ∨ (Rect.block (s := S500000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S500000x1.size a
  hwx1_5 : ∀ i : grid1.Coords, EltTy.bits .f32 = 32 ∨ (Rect.block (s := S500000x1) S5000x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S500000x1.size a
  hwx2_0 : ∀ i : grid2.Coords, EltTy.bits .f32 = 32 ∨ (Rect.block (s := S500000x1) S5000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S500000x1.size a
  hwx2_1 : ∀ i : grid2.Coords, EltTy.bits .f32 = 32 ∨ (Rect.block (s := S500000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S500000x1.size a
  hwx2_2 : ∀ i : grid2.Coords, EltTy.bits .f32 = 32 ∨ (Rect.block (s := S500000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S500000x1.size a
  hwx2_4 : ∀ i : grid2.Coords, EltTy.bits .f32 = 32 ∨ (Rect.block (s := S500000x1) S5000x1.size (cc2_transform_4 i) (hinb2_4 i)).WholeWords (EltTy.packing .f32)

variable [Facts₀]

def scatter_S500000_S5000000x1_S5000000_n_0_0_1 : ScatterDims S500000 S5000000x1 S5000000 where
  updateWindowDims := []
  insertedWindowDims := [0]
  scatterDimsToOperandDims := [0]
  indexVectorDim := 1
  wf := scatter_S500000_S5000000x1_S5000000_n_0_0_1_wf
def gather_S500000x16_S5000000x1_S5000000x16_1_0_n_n_0_1_116 : GatherDims S500000x16 S5000000x1 S5000000x16 where
  offsetDims := [1]
  collapsedSliceDims := [0]
  operandBatchingDims := []
  startIndicesBatchingDims := []
  startIndexMap := [0]
  indexVectorDim := 1
  sliceSizes := ![1, 16]
  wf := gather_S500000x16_S5000000x1_S5000000x16_1_0_n_n_0_1_116_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf
def gather_S500000x1_S5000000x1_S5000000x1_1_0_n_n_0_1_11 : GatherDims S500000x1 S5000000x1 S5000000x1 where
  offsetDims := [1]
  collapsedSliceDims := [0]
  operandBatchingDims := []
  startIndicesBatchingDims := []
  startIndexMap := [0]
  indexVectorDim := 1
  sliceSizes := ![1, 1]
  wf := gather_S500000x1_S5000000x1_S5000000x1_1_0_n_n_0_1_11_wf
def scatter_S500000x1_S5000000x1_S5000000x1_1_0_0_1 : ScatterDims S500000x1 S5000000x1 S5000000x1 where
  updateWindowDims := [1]
  insertedWindowDims := [0]
  scatterDimsToOperandDims := [0]
  indexVectorDim := 1
  wf := scatter_S500000x1_S5000000x1_S5000000x1_1_0_0_1_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S5000x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S5000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v21) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11_0) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11_0) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S5000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S500000x1 : Shape := ⟨2, ![500000, 1]⟩
abbrev S1x16 : Shape := ⟨2, ![1, 16]⟩
abbrev S16 : Shape := ⟨1, ![16]⟩
abbrev S16x1 : Shape := ⟨2, ![16, 1]⟩
abbrev S1 : Shape := ⟨1, ![1]⟩
abbrev S2x5000000 : Shape := ⟨2, ![2, 5000000]⟩
abbrev S1x5000000 : Shape := ⟨2, ![1, 5000000]⟩
abbrev S5000000 : Shape := ⟨1, ![5000000]⟩
abbrev S500000 : Shape := ⟨1, ![500000]⟩
abbrev S5500000 : Shape := ⟨1, ![5500000]⟩
abbrev S_ : Shape := ⟨0, ![]⟩
abbrev S5500000x1 : Shape := ⟨2, ![5500000, 1]⟩
abbrev S500000x16 : Shape := ⟨2, ![500000, 16]⟩
abbrev S5500000x16 : Shape := ⟨2, ![5500000, 16]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S500000x1, .f32⟩
  | .hbm, ⟨1, _⟩ => ⟨S1x16, .f32⟩
  | .hbm, ⟨2, _⟩ => ⟨S16, .f32⟩
  | .hbm, ⟨3, _⟩ => ⟨S16x1, .f32⟩
  | .hbm, ⟨4, _⟩ => ⟨S1, .f32⟩
  | .hbm, ⟨5, _⟩ => ⟨S2x5000000, .i32⟩
  | .hbm, ⟨6, _⟩ => ⟨S1x5000000, .i32⟩
  | .hbm, ⟨7, _⟩ => ⟨S5000000, .i32⟩
  | .hbm, ⟨8, _⟩ => ⟨S1x5000000, .i32⟩
  | .hbm, ⟨9, _⟩ => ⟨S5000000, .i32⟩
  | .hbm, ⟨10, _⟩ => ⟨S500000, .i32⟩
  | .hbm, ⟨11, _⟩ => ⟨S5500000, .i32⟩
  | .hbm, ⟨12, _⟩ => ⟨S5500000, .i32⟩
  | .hbm, ⟨13, _⟩ => ⟨S_, .f32⟩
  | .hbm, ⟨14, _⟩ => ⟨S5500000, .f32⟩
  | .hbm, ⟨15, _⟩ => ⟨S_, .f32⟩
  | .hbm, ⟨16, _⟩ => ⟨S500000, .f32⟩
  | .hbm, ⟨17, _⟩ => ⟨S5500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S_, .f32⟩
  | .hbm, ⟨23, _⟩ => ⟨S500000, .f32⟩
  | .hbm, ⟨24, _⟩ => ⟨S500000, .f32⟩
  | .hbm, ⟨25, _⟩ => ⟨S500000, .f32⟩
  | .hbm, ⟨26, _⟩ => ⟨S_, .f32⟩
  | .hbm, ⟨27, _⟩ => ⟨S_, .f32⟩
  | .hbm, ⟨28, _⟩ => ⟨S500000, .f32⟩
  | .hbm, ⟨29, _⟩ => ⟨S500000, .f32⟩
  | .hbm, ⟨30, _⟩ => ⟨S_, .i32⟩
  | .hbm, ⟨31, _⟩ => ⟨S5500000, .i32⟩
  | .hbm, ⟨32, _⟩ => ⟨S5500000, .i1⟩
  | .hbm, ⟨33, _⟩ => ⟨S_, .i32⟩
  | .hbm, ⟨34, _⟩ => ⟨S5500000, .i32⟩
  | .hbm, ⟨35, _⟩ => ⟨S5500000, .i32⟩
  | .hbm, ⟨36, _⟩ => ⟨S5500000, .i32⟩
  | .hbm, ⟨37, _⟩ => ⟨S5500000x1, .i32⟩
  | .hbm, ⟨38, _⟩ => ⟨S5500000, .f32⟩
  | .hbm, ⟨39, _⟩ => ⟨S_, .i32⟩
  | .hbm, ⟨40, _⟩ => ⟨S5500000, .i32⟩
  | .hbm, ⟨41, _⟩ => ⟨S5500000, .i1⟩
  | .hbm, ⟨42, _⟩ => ⟨S_, .i32⟩
  | .hbm, ⟨43, _⟩ => ⟨S5500000, .i32⟩
  | .hbm, ⟨44, _⟩ => ⟨S5500000, .i32⟩
  | .hbm, ⟨45, _⟩ => ⟨S5500000, .i32⟩
  | .hbm, ⟨46, _⟩ => ⟨S5500000x1, .i32⟩
  | .hbm, ⟨47, _⟩ => ⟨S5500000, .f32⟩
  | .hbm, ⟨48, _⟩ => ⟨S5500000, .f32⟩
  | .hbm, ⟨49, _⟩ => ⟨S500000x16, .f32⟩
  | .hbm, ⟨50, _⟩ => ⟨S_, .i32⟩
  | .hbm, ⟨51, _⟩ => ⟨S5500000, .i32⟩
  | .hbm, ⟨52, _⟩ => ⟨S5500000, .i1⟩
  | .hbm, ⟨53, _⟩ => ⟨S_, .i32⟩
  | .hbm, ⟨54, _⟩ => ⟨S5500000, .i32⟩
  | .hbm, ⟨55, _⟩ => ⟨S5500000, .i32⟩
  | .hbm, ⟨56, _⟩ => ⟨S5500000, .i32⟩
  | .hbm, ⟨57, _⟩ => ⟨S5500000x1, .i32⟩
  | .hbm, ⟨58, _⟩ => ⟨S5500000x16, .f32⟩
  | .hbm, ⟨59, _⟩ => ⟨S5500000x1, .f32⟩
  | .hbm, ⟨60, _⟩ => ⟨S5500000x16, .f32⟩
  | .hbm, ⟨61, _⟩ => ⟨S5500000x16, .f32⟩
  | .hbm, ⟨62, _⟩ => ⟨S_, .f32⟩
  | .hbm, ⟨63, _⟩ => ⟨S500000x16, .f32⟩
  | .hbm, ⟨64, _⟩ => ⟨S5500000x1, .i32⟩
  | .hbm, ⟨65, _⟩ => ⟨S500000x16, .f32⟩
  | .hbm, ⟨66, _⟩ => ⟨S1x16, .f32⟩
  | .hbm, ⟨67, _⟩ => ⟨S500000x16, .f32⟩
  | .hbm, ⟨68, _⟩ => ⟨S500000x16, .f32⟩
  | .hbm, ⟨69, _⟩ => ⟨S_, .f32⟩
  | .hbm, ⟨70, _⟩ => ⟨S500000x16, .f32⟩
  | .hbm, ⟨71, _⟩ => ⟨S500000x16, .f32⟩
  | .hbm, ⟨72, _⟩ => ⟨S500000x1, .f32⟩
  | .hbm, ⟨73, _⟩ => ⟨S_, .i32⟩
  | .hbm, ⟨74, _⟩ => ⟨S5500000, .i32⟩
  | .hbm, ⟨75, _⟩ => ⟨S5500000, .i1⟩
  | .hbm, ⟨76, _⟩ => ⟨S_, .i32⟩
  | .hbm, ⟨77, _⟩ => ⟨S5500000, .i32⟩
  | .hbm, ⟨78, _⟩ => ⟨S5500000, .i32⟩
  | .hbm, ⟨79, _⟩ => ⟨S5500000, .i32⟩
  | .hbm, ⟨80, _⟩ => ⟨S5500000x1, .i32⟩
  | .hbm, ⟨81, _⟩ => ⟨S5500000x1, .f32⟩
  | .hbm, ⟨82, _⟩ => ⟨S5500000x1, .f32⟩
  | .hbm, ⟨83, _⟩ => ⟨S5500000x1, .f32⟩
  | .hbm, ⟨84, _⟩ => ⟨S_, .f32⟩
  | .hbm, ⟨85, _⟩ => ⟨S500000x1, .f32⟩
  | .hbm, ⟨86, _⟩ => ⟨S5500000x1, .i32⟩
  | .hbm, ⟨87, _⟩ => ⟨S500000x1, .f32⟩
  | .hbm, ⟨88, _⟩ => ⟨S1x1, .f32⟩
  | .hbm, ⟨89, _⟩ => ⟨S500000x1, .f32⟩
  | .hbm, ⟨90, _⟩ => ⟨S500000x1, .f32⟩
  | .hbm, ⟨91, _⟩ => ⟨S500000, .f32⟩
  | _, _ => ⟨S500000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S5000000_S500000_S5500000_d0 : Shape.Concatenates [S5000000, S500000] S5500000 0
  bcast_S_S5500000 : S_.BroadcastsInDim S5500000 (![] : Fin 0 → Fin S5500000.rank)
  bcast_S_S500000 : S_.BroadcastsInDim S500000 (![] : Fin 0 → Fin S500000.rank)
  bcast_S5500000_S5500000x1_0 : S5500000.BroadcastsInDim S5500000x1 (![0] : Fin 1 → Fin S5500000x1.rank)
  bcast_S5500000x1_S5500000x16_0_1 : S5500000x1.BroadcastsInDim S5500000x16 (![0, 1] : Fin 2 → Fin S5500000x16.rank)
  bcast_S_S500000x16 : S_.BroadcastsInDim S500000x16 (![] : Fin 0 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  scatter_S500000_S5500000x1_S5500000_n_0_0_1_wf : ScatterDims.WF S500000 S5500000x1 S5500000 [] [0] [0] 1
  gather_S500000_S5500000x1_S5500000_n_0_n_n_0_1_1_wf : GatherDims.WF S500000 S5500000x1 S5500000 [] [0] [] [0] [] 1 ![1]
  dot_S500000x1_S1x16_S500000x16_1_0_0_1_n_n_wf : DotDims.WF S500000x1 S1x16 S500000x16 [1] [0] [0] [1] [] []
  gather_S500000x16_S5500000x1_S5500000x16_1_0_n_n_0_1_116_wf : GatherDims.WF S500000x16 S5500000x1 S5500000x16 [1] [0] [] [0] [] 1 ![1, 16]
  scatter_S500000x16_S5500000x1_S5500000x16_1_0_0_1_wf : ScatterDims.WF S500000x16 S5500000x1 S5500000x16 [1] [0] [0] 1
  dot_S500000x16_S16x1_S500000x1_1_0_0_1_n_n_wf : DotDims.WF S500000x16 S16x1 S500000x1 [1] [0] [0] [1] [] []
  gather_S500000x1_S5500000x1_S5500000x1_1_0_n_n_0_1_11_wf : GatherDims.WF S500000x1 S5500000x1 S5500000x1 [1] [0] [] [0] [] 1 ![1, 1]
  scatter_S500000x1_S5500000x1_S5500000x1_1_0_0_1_wf : ScatterDims.WF S500000x1 S5500000x1 S5500000x1 [1] [0] [0] 1

variable [Facts₀]

def scatter_S500000_S5500000x1_S5500000_n_0_0_1 : ScatterDims S500000 S5500000x1 S5500000 where
  updateWindowDims := []
  insertedWindowDims := [0]
  scatterDimsToOperandDims := [0]
  indexVectorDim := 1
  wf := scatter_S500000_S5500000x1_S5500000_n_0_0_1_wf
def gather_S500000_S5500000x1_S5500000_n_0_n_n_0_1_1 : GatherDims S500000 S5500000x1 S5500000 where
  offsetDims := []
  collapsedSliceDims := [0]
  operandBatchingDims := []
  startIndicesBatchingDims := []
  startIndexMap := [0]
  indexVectorDim := 1
  sliceSizes := ![1]
  wf := gather_S500000_S5500000x1_S5500000_n_0_n_n_0_1_1_wf
def dot_S500000x1_S1x16_S500000x16_1_0_0_1_n_n : DotDims S500000x1 S1x16 S500000x16 where
  lhsContracting := [1]
  rhsContracting := [0]
  lhsNonContracting := [0]
  rhsNonContracting := [1]
  lhsBatch := []
  rhsBatch := []
  wf := dot_S500000x1_S1x16_S500000x16_1_0_0_1_n_n_wf
def gather_S500000x16_S5500000x1_S5500000x16_1_0_n_n_0_1_116 : GatherDims S500000x16 S5500000x1 S5500000x16 where
  offsetDims := [1]
  collapsedSliceDims := [0]
  operandBatchingDims := []
  startIndicesBatchingDims := []
  startIndexMap := [0]
  indexVectorDim := 1
  sliceSizes := ![1, 16]
  wf := gather_S500000x16_S5500000x1_S5500000x16_1_0_n_n_0_1_116_wf
def scatter_S500000x16_S5500000x1_S5500000x16_1_0_0_1 : ScatterDims S500000x16 S5500000x1 S5500000x16 where
  updateWindowDims := [1]
  insertedWindowDims := [0]
  scatterDimsToOperandDims := [0]
  indexVectorDim := 1
  wf := scatter_S500000x16_S5500000x1_S5500000x16_1_0_0_1_wf
def dot_S500000x16_S16x1_S500000x1_1_0_0_1_n_n : DotDims S500000x16 S16x1 S500000x1 where
  lhsContracting := [1]
  rhsContracting := [0]
  lhsNonContracting := [0]
  rhsNonContracting := [1]
  lhsBatch := []
  rhsBatch := []
  wf := dot_S500000x16_S16x1_S500000x1_1_0_0_1_n_n_wf
def gather_S500000x1_S5500000x1_S5500000x1_1_0_n_n_0_1_11 : GatherDims S500000x1 S5500000x1 S5500000x1 where
  offsetDims := [1]
  collapsedSliceDims := [0]
  operandBatchingDims := []
  startIndicesBatchingDims := []
  startIndexMap := [0]
  indexVectorDim := 1
  sliceSizes := ![1, 1]
  wf := gather_S500000x1_S5500000x1_S5500000x1_1_0_n_n_0_1_11_wf
def scatter_S500000x1_S5500000x1_S5500000x1_1_0_0_1 : ScatterDims S500000x1 S5500000x1 S5500000x1 where
  updateWindowDims := [1]
  insertedWindowDims := [0]
  scatterDimsToOperandDims := [0]
  indexVectorDim := 1
  wf := scatter_S500000x1_S5500000x1_S5500000x1_1_0_0_1_wf

class Facts : Prop extends Facts₀ where

variable [Facts]
-- ==== Proof.KRun.lean ====
/-
  The idealized kernel's run with its result named.

  @main is seven segments: a stretch of host operations, a launch of the first kernel over its 100 row blocks, a second
  stretch, the second kernel, a third stretch, the third kernel, and a closing reshape. The contents of every buffer at each
  segment boundary are a fold from the launch memory: a host stretch applies its operations, a kernel launch leaves each of
  its output arrays at what the write-backs of its 100 blocks assemble and every other buffer as it found it. Every weakly
  fair execution terminates without a fault with every buffer at the last boundary's contents — in particular the result
  buffer, read here beside the six argument arrays, which end as launched.
-/
import proofs.«119362_j87720412054223_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v37) = W7 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v37 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KRun

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KReg0.lean ====
/-
  The first kernel's two output arrays, each as one function of the arrays the kernel finds on entry.

  The kernel walks the 500000 rows in 100 blocks of 5000. On its block of rows it reads the degree column `deg`, the
  feature column `x` and the one weight row `w` (the same block of `w` at every point), and writes
    d = deg^(-1/2)                 (a column),
    hs[r, k] = d[r] · (x[r] · w[k])  (16 channels).
  Every output entry depends only on its own row, so block `t` of each output is block `t` of one whole-array function,
  and the 100 blocks tile the rows: the arrays end holding those functions.
-/
import proofs.«119362_j87720412054223_2_alg».proof.Proof.Gen.KernelIdeal.Frame
import Idealize.ShloMosaic.Lib.Pipeline.Value
import Idealize.ShloMosaic.Lib.ValueIdx
import Idealize.ShloMosaic.Lib.ValueLayout
import proofs.«119362_j87720412054223_2_alg».proof.Proof.LibColumnBroadcast

set_option maxRecDepth 16384

noncomputable section

namespace Cert.KernelIdeal.KReg0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The inverse square root of the degree column, entry by entry. -/
def dinvOf (deg : S500000x1.Idx → EReal) : S500000x1.Idx → EReal := fun i => Ideal.rsqrt (deg i)

/-- The pre-scaled first-layer features: row `r`, channel `k` holds `d[r] · (x[r] · w[k])`. -/
def hs1Of (deg x : S500000x1.Idx → EReal) (w : S1x16.Idx → EReal) : S500000x16.Idx → EReal :=
  fun i => Ideal.rsqrt (deg (ix2 (i 0) (0 : Fin 1))) * (x (ix2 (i 0) (0 : Fin 1)) * w (ix2 (0 : Fin 1) (i 1)))

/-- Three reads at the row and channel of an index multiply to `hs1Of` there. -/
theorem hs1Of_of_reads (deg x : S500000x1.Idx → EReal) (w : S1x16.Idx → EReal) (i1 i0 : S500000x1.Idx) (i2 : S1x16.Idx)
    (i : S500000x16.Idx) (h1 : i1 = ix2 (i 0) (0 : Fin 1)) (h0 : i0 = ix2 (i 0) (0 : Fin 1)) (h2 : i2 = ix2 (0 : Fin 1) (i 1)) :
    Ideal.rsqrt (deg i1) * (x i0 * w i2) = hs1Of deg x w i := by
  subst h1 h0 h2; rfl

/-- The column payload at an entry: the inverse square root of the loaded degree there. -/
theorem pay1_apply (v0 : Vec Ideal S5000x1 .f32) (j : S5000x1.Idx) : k0_pay1 v0 j = Ideal.rsqrt (v0 j) := by
  unfold k0_pay1
  rw [shapeCast_self]
  rfl

/-- The 16-channel payload at row `p`, channel `q` of the block. -/
theorem pay2_apply (v0 v4 : Vec Ideal S5000x1 .f32) (v5 : Vec Ideal S1x16 .f32) (p : Fin 5000) (q : Fin 16) :
    k0_pay2 v0 v4 v5 (ix2 p q)
      = Ideal.rsqrt (v0 (ix2 p (0 : Fin 1))) * (v4 (ix2 p (0 : Fin 1)) * v5 (ix2 (0 : Fin 1) q)) := by
  unfold k0_pay2
  show (broadcastTo S5000x16 (k0_pay1 v0) broadcasts_S5000x1_S5000x16 (ix2 p q))
      * ((broadcastTo S5000x16 v4 broadcasts_S5000x1_S5000x16 (ix2 p q)) * (broadcastTo S5000x16 v5 broadcasts_S1x16_S5000x16 (ix2 p q))) = _
  rw [broadcastTo_a1_ab_apply, broadcastTo_a1_ab_apply, broadcastTo_1b_ab_apply, pay1_apply]

/-- The printed index maps over the 100 points: every row-blocked window sits at block (t, 0), the weight row at (0, 0). -/
theorem idx_facts : ∀ t : Fin cfg0.N, win0_3.index t (0 : Fin 2) = t.val ∧ win0_3.index t (1 : Fin 2) = 0
    ∧ win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- WHAT POINT `t` WRITES BACK into the column output is block `t` of `dinvOf` of the degree column. -/
theorem flushed3_eq (c : Dev nD) (t : Fin cfg0.N) :
    (dat0 V c).flushed 3 t = ((cfg0.win 3).blk t).view.read (Elt Ideal) (dinvOf (V c main_v10)) := by
  show (cfg0.win 3).cut (grid0.coords t) ((dat0 V c).after 3 t) = _
  rw [after0_3]
  unfold out0_3
  rw [View.canon_unit_zero hz]
  simp only [View.ld_unit_zero (S := S5000x1) hz]
  obtain ⟨e30, e31, e40, e41, e00, e01, e10, e11, e20, e21⟩ := idx_facts t
  funext j
  show k0_pay1 (iblk0 V c 1 t) j = dinvOf (V c main_v10) (((cfg0.win 3).blk t).view.emb j)
  refine (pay1_apply _ _).trans ?_
  show Ideal.rsqrt (V c main_v10 (((cfg0.win 1).blk t).view.emb j)) = Ideal.rsqrt (V c main_v10 (((cfg0.win 3).blk t).view.emb j))
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * (j 1).val = win0_3.index t (1 : Fin 2) * 1 + 1 * (j 1).val; omega
  rw [h1]

/-- WHAT POINT `t` WRITES BACK into the 16-channel output is block `t` of `hs1Of` of the degree column, the feature
    column and the weight row. -/
theorem flushed4_eq (c : Dev nD) (t : Fin cfg0.N) :
    (dat0 V c).flushed 4 t
      = ((cfg0.win 4).blk t).view.read (Elt Ideal) (hs1Of (V c main_v10) (V c main_arg0) (V c main_arg1)) := by
  show (cfg0.win 4).cut (grid0.coords t) ((dat0 V c).after 4 t) = _
  rw [after0_4]
  unfold out0_4
  rw [View.canon_unit_zero hz]
  simp only [View.ld_unit_zero (S := S5000x1) hz, View.ld_unit_zero (S := S5000x16) hz, View.ld_unit_zero (S := S1x16) hz]
  obtain ⟨e30, e31, e40, e41, e00, e01, e10, e11, e20, e21⟩ := idx_facts t
  funext j
  obtain ⟨p, q, rfl⟩ : ∃ (p : Fin 5000) (q : Fin 16), j = ix2 p q := ⟨j 0, j 1, eq_ix2 j⟩
  show k0_pay2 (iblk0 V c 1 t) (iblk0 V c 0 t) (iblk0 V c 2 t) (ix2 p q)
      = hs1Of (V c main_v10) (V c main_arg0) (V c main_arg1) (((cfg0.win 4).blk t).view.emb (ix2 p q))
  refine (pay2_apply _ _ _ p q).trans ?_
  have h1 : ((cfg0.win 1).blk t).view.emb (ix2 p (0 : Fin 1)) = ix2 ((((cfg0.win 4).blk t).view.emb (ix2 p q)) 0) (0 : Fin 1) := by
    funext a; apply Fin.ext
    match a with
    | ⟨0, _⟩ => show win0_1.index t (0 : Fin 2) * 5000 + 1 * p.val = win0_4.index t (0 : Fin 2) * 5000 + 1 * p.val; omega
    | ⟨1, _⟩ => show win0_1.index t (1 : Fin 2) * 1 + 1 * 0 = 0; omega
  have h0 : ((cfg0.win 0).blk t).view.emb (ix2 p (0 : Fin 1)) = ix2 ((((cfg0.win 4).blk t).view.emb (ix2 p q)) 0) (0 : Fin 1) := by
    funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 1 + 1 * 0 = 0; omega
  have h2 : ((cfg0.win 2).blk t).view.emb (ix2 (0 : Fin 1) q) = ix2 (0 : Fin 1) ((((cfg0.win 4).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 16 + 1 * q.val = win0_4.index t (1 : Fin 2) * 16 + 1 * q.val; omega
  exact hs1Of_of_reads (V c main_v10) (V c main_arg0) (V c main_arg1) _ _ _ _ h1 h0 h2

/-- An index of the column array is in point `t`'s block iff its row is among the block's 5000 rows. -/
theorem mem_blk3 (t : Fin cfg0.N) (i : S500000x1.Idx) :
    i ∈ ((cfg0.win 3).blk t).view.set ↔ ∀ a : Fin 2, win0_3.index t a * S5000x1.size a ≤ (i a).val ∧ (i a).val < win0_3.index t a * S5000x1.size a + S5000x1.size a := by
  show i ∈ ((View.whole main_v11_0).slice (win0_3.rect t)).set ↔ _
  rw [View.set_slice_whole, Rect.mem_set_unit]
  exact Iff.rfl

theorem mem_blk4 (t : Fin cfg0.N) (i : S500000x16.Idx) :
    i ∈ ((cfg0.win 4).blk t).view.set ↔ ∀ a : Fin 2, win0_4.index t a * S5000x16.size a ≤ (i a).val ∧ (i a).val < win0_4.index t a * S5000x16.size a + S5000x16.size a := by
  show i ∈ ((View.whole main_v11_1).slice (win0_4.rect t)).set ↔ _
  rw [View.set_slice_whole, Rect.mem_set_unit]
  exact Iff.rfl

/-- Row `r` lies in the block of point `r / 5000`: the 100 blocks tile the 500000 rows. -/
theorem cover3 (i : S500000x1.Idx) : ∃ t : Fin cfg0.N, (cfg0.win 3).flush t = true ∧ i ∈ ((cfg0.win 3).blk t).view.set := by
  have hN : grid0.N = 100 := N_0
  have hi0 : (i 0).val < 500000 := (i 0).isLt
  have hi1 : (i 1).val < 1 := (i 1).isLt
  let t : Fin cfg0.N := ⟨(i 0).val / 5000, by show (i 0).val / 5000 < grid0.N; omega⟩
  obtain ⟨e30, e31, -⟩ := idx_facts t
  have ht : t.val = (i 0).val / 5000 := rfl
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 1 ≤ (i 1).val ∧ (i 1).val < win0_3.index t (1 : Fin 2) * 1 + 1; omega

theorem cover4 (i : S500000x16.Idx) : ∃ t : Fin cfg0.N, (cfg0.win 4).flush t = true ∧ i ∈ ((cfg0.win 4).blk t).view.set := by
  have hN : grid0.N = 100 := N_0
  have hi0 : (i 0).val < 500000 := (i 0).isLt
  have hi1 : (i 1).val < 16 := (i 1).isLt
  let t : Fin cfg0.N := ⟨(i 0).val / 5000, by show (i 0).val / 5000 < grid0.N; omega⟩
  obtain ⟨-, -, e40, e41, -⟩ := idx_facts t
  have ht : t.val = (i 0).val / 5000 := rfl
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 16 ≤ (i 1).val ∧ (i 1).val < win0_4.index t (1 : Fin 2) * 16 + 16; omega

/-- THE COLUMN ARRAY after the launch: the inverse square root of the degree column the kernel found. -/
theorem final3 (c : Dev nD) : (dat0 V c).arrAt 3 cfg0.N = dinvOf (V c main_v10) :=
  (dat0 V c).arrAt_eq_of_cover 3 (dinvOf (V c main_v10)) (fun t _ => flushed3_eq V c t) cover3

/-- THE 16-CHANNEL ARRAY after the launch: the pre-scaled features of the arrays the kernel found. -/
theorem final4 (c : Dev nD) : (dat0 V c).arrAt 4 cfg0.N = hs1Of (V c main_v10) (V c main_arg0) (V c main_arg1) :=
  (dat0 V c).arrAt_eq_of_cover 4 (hs1Of (V c main_v10) (V c main_arg0) (V c main_arg1)) (fun t _ => flushed4_eq V c t) cover4

end Cert.KernelIdeal.KReg0

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.KReg1.lean ====
/-
  The second kernel's output array as one function of the arrays the kernel finds on entry.

  On its block of 5000 rows the kernel reads the aggregated first-layer messages `agg` and the node's own pre-scaled
  features `hs` (16 channels each), the normalisation column `d`, the bias row `b` and the weight row `w`, and writes
    d[r] · Σ_k max(d[r] · (agg[r,k] + hs[r,k]) + b[k], 0) · w[k]
  — the first layer finished (self-loop folded in, bias, rectifier), contracted with the second layer's weights over the
  16 channels, and pre-scaled for the second layer's messages. Every output entry depends only on its own row, so block
  `t` of the output is block `t` of one whole-array function, and the 100 blocks tile the 500000 rows.
-/
import proofs.«119362_j87720412054223_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«119362_j87720412054223_2_alg».proof.Proof.LibColumnBroadcast
import proofs.«119362_j87720412054223_2_alg».proof.Proof.LibKeepdimsColumn

set_option maxRecDepth 16384

noncomputable section

namespace Cert.KernelIdeal.KReg1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The second layer's pre-scaled feature: the finished first layer contracted with `w` over the channels, times `d`. -/
def hs2Of (agg hs : S500000x16.Idx → EReal) (d : S500000x1.Idx → EReal) (b w : S1x16.Idx → EReal) : S500000x1.Idx → EReal :=
  fun i => d i * ∑ k : Fin 16,
    max (d (ix2 (i 0) (0 : Fin 1)) * (agg (ix2 (i 0) k) + hs (ix2 (i 0) k)) + b (ix2 (0 : Fin 1) k))
      (Ideal.ofBits .f32 0x00000000#32) * w (ix2 (0 : Fin 1) k)

/-- Reads at the row of an index, channel by channel, make `hs2Of` there. -/
theorem hs2Of_of_reads (agg hs : S500000x16.Idx → EReal) (d : S500000x1.Idx → EReal) (b w : S1x16.Idx → EReal)
    (i id id0 : S500000x1.Idx) (ia ih : Fin 16 → S500000x16.Idx) (ib iw : Fin 16 → S1x16.Idx)
    (hd : id = i) (hd0 : id0 = ix2 (i 0) (0 : Fin 1)) (ha : ∀ k, ia k = ix2 (i 0) k) (hh : ∀ k, ih k = ix2 (i 0) k)
    (hb : ∀ k, ib k = ix2 (0 : Fin 1) k) (hw : ∀ k, iw k = ix2 (0 : Fin 1) k) :
    d id * ∑ k : Fin 16, max (d id0 * (agg (ia k) + hs (ih k)) + b (ib k)) (Ideal.ofBits .f32 0x00000000#32) * w (iw k)
      = hs2Of agg hs d b w i := by
  subst hd hd0
  unfold hs2Of
  refine congrArg (fun z => d id * z) (Finset.sum_congr rfl fun k _ => ?_)
  rw [ha k, hh k, hb k, hw k]
  rfl

/-- A sum over the 16 lanes of a block row, read exactly: the plain sum of the row's entries. -/
theorem lane_sum (src : FVec Ideal S5000x16 .f32) (hacc : (0x00000000#32 : BitVec 32) = 0x00000000#32) (p : Fin 5000) :
    multiReduction .add [1] S5000 src 0x00000000#32 reduces_S5000x16_S5000 (.inl rfl) hacc (ix1 p)
      = ∑ k : Fin 16, src (ix2 p k) := by
  refine (Ideal.multiReduction_add_single src 0x00000000#32 reduces_S5000x16_S5000 (.inl rfl) hacc (ix1 p)).trans ?_
  refine Finset.sum_congr rfl fun k _ => congrArg src ?_
  funext a; apply Fin.ext
  match a with
  | ⟨0, _⟩ => rfl
  | ⟨1, _⟩ => rfl

/-- The payload at row `p` of the block. -/
theorem pay_apply (v0 : Vec Ideal S5000x1 .f32) (v2 v4 : Vec Ideal S5000x16 .f32) (v9 v15 : Vec Ideal S1x16 .f32)
    (p : Fin 5000) (u : Fin 1) :
    k1_pay1 v0 v2 v4 v9 v15 (ix2 p u)
      = v0 (ix2 p u) * ∑ k : Fin 16,
          max (v0 (ix2 p (0 : Fin 1)) * (v2 (ix2 p k) + v4 (ix2 p k)) + v9 (ix2 (0 : Fin 1) k))
            (Ideal.ofBits .f32 0x00000000#32) * v15 (ix2 (0 : Fin 1) k) := by
  unfold k1_pay1
  simp only [shapeCast_self]
  show v0 (ix2 p u) * _ = _
  refine congrArg (fun z => v0 (ix2 p u) * z) ?_
  refine (Cert.LibKeepdims.shapeCast_a_a1_apply _ _ p u).trans ?_
  refine (lane_sum _ rfl p).trans ?_
  refine Finset.sum_congr rfl fun k _ => ?_
  show max ((broadcastTo S5000x16 v0 broadcasts_S5000x1_S5000x16 (ix2 p k)) * (v2 (ix2 p k) + v4 (ix2 p k))
        + broadcastTo S5000x16 v9 broadcasts_S1x16_S5000x16 (ix2 p k)) (Ideal.ofBits .f32 0x00000000#32)
      * broadcastTo S5000x16 v15 broadcasts_S1x16_S5000x16 (ix2 p k) = _
  rw [broadcastTo_a1_ab_apply, broadcastTo_1b_ab_apply, broadcastTo_1b_ab_apply]

/-- The printed index maps over the 100 points: every row-blocked window sits at block (t, 0), the two rows at (0, 0). -/
theorem idx_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- WHAT POINT `t` WRITES BACK is block `t` of `hs2Of` of the arrays the kernel found. -/
theorem flushed_eq (c : Dev nD) (t : Fin cfg1.N) :
    (dat1 V c).flushed 5 t
      = ((cfg1.win 5).blk t).view.read (Elt Ideal)
          (hs2Of (V c main_v21) (V c main_v11_1) (V c main_v11_0) (V c main_v22) (V c main_v23)) := by
  show (cfg1.win 5).cut (grid1.coords t) ((dat1 V c).after 5 t) = _
  rw [after1_5]
  unfold out1_5
  rw [View.canon_unit_zero hz]
  simp only [View.ld_unit_zero (S := S5000x1) hz, View.ld_unit_zero (S := S5000x16) hz, View.ld_unit_zero (S := S1x16) hz]
  obtain ⟨e50, e51, e00, e01, e10, e11, e20, e21, e30, e31, e40, e41⟩ := idx_facts t
  funext j
  obtain ⟨p, u, rfl⟩ : ∃ (p : Fin 5000) (u : Fin 1), j = ix2 p u := ⟨j 0, j 1, eq_ix2 j⟩
  have hu : u.val = 0 := by omega
  show k1_pay1 (iblk1 V c 2 t) (iblk1 V c 0 t) (iblk1 V c 1 t) (iblk1 V c 3 t) (iblk1 V c 4 t) (ix2 p u)
      = hs2Of (V c main_v21) (V c main_v11_1) (V c main_v11_0) (V c main_v22) (V c main_v23) (((cfg1.win 5).blk t).view.emb (ix2 p u))
  refine (pay_apply _ _ _ _ _ p u).trans ?_
  have hd : ((cfg1.win 2).blk t).view.emb (ix2 p u) = ((cfg1.win 5).blk t).view.emb (ix2 p u) := by
    funext a; apply Fin.ext
    match a with
    | ⟨0, _⟩ => show win1_2.index t (0 : Fin 2) * 5000 + 1 * p.val = win1_5.index t (0 : Fin 2) * 5000 + 1 * p.val; omega
    | ⟨1, _⟩ => show win1_2.index t (1 : Fin 2) * 1 + 1 * u.val = win1_5.index t (1 : Fin 2) * 1 + 1 * u.val; omega
  have hd0 : ((cfg1.win 2).blk t).view.emb (ix2 p (0 : Fin 1)) = ix2 ((((cfg1.win 5).blk t).view.emb (ix2 p u)) 0) (0 : Fin 1) := by
    funext a; apply Fin.ext
    match a with
    | ⟨0, _⟩ => show win1_2.index t (0 : Fin 2) * 5000 + 1 * p.val = win1_5.index t (0 : Fin 2) * 5000 + 1 * p.val; omega
    | ⟨1, _⟩ => show win1_2.index t (1 : Fin 2) * 1 + 1 * 0 = 0; omega
  have ha : ∀ k : Fin 16, ((cfg1.win 0).blk t).view.emb (ix2 p k) = ix2 ((((cfg1.win 5).blk t).view.emb (ix2 p u)) 0) k := by
    intro k; funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 16 + 1 * k.val = k.val; omega
  have hh : ∀ k : Fin 16, ((cfg1.win 1).blk t).view.emb (ix2 p k) = ix2 ((((cfg1.win 5).blk t).view.emb (ix2 p u)) 0) k := by
    intro k; funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 16 + 1 * k.val = k.val; omega
  have hb : ∀ k : Fin 16, ((cfg1.win 3).blk t).view.emb (ix2 (0 : Fin 1) k) = ix2 (0 : Fin 1) k := by
    intro k; funext a; apply Fin.ext
    match a with
    | ⟨0, _⟩ => show win1_3.index t (0 : Fin 2) * 1 + 1 * 0 = 0; omega
    | ⟨1, _⟩ => show win1_3.index t (1 : Fin 2) * 16 + 1 * k.val = k.val; omega
  have hw : ∀ k : Fin 16, ((cfg1.win 4).blk t).view.emb (ix2 (0 : Fin 1) k) = ix2 (0 : Fin 1) k := by
    intro k; funext a; apply Fin.ext
    match a with
    | ⟨0, _⟩ => show win1_4.index t (0 : Fin 2) * 1 + 1 * 0 = 0; omega
    | ⟨1, _⟩ => show win1_4.index t (1 : Fin 2) * 16 + 1 * k.val = k.val; omega
  exact hs2Of_of_reads (V c main_v21) (V c main_v11_1) (V c main_v11_0) (V c main_v22) (V c main_v23) _ _ _
    (fun k => ((cfg1.win 0).blk t).view.emb (ix2 p k)) (fun k => ((cfg1.win 1).blk t).view.emb (ix2 p k))
    (fun k => ((cfg1.win 3).blk t).view.emb (ix2 (0 : Fin 1) k)) (fun k => ((cfg1.win 4).blk t).view.emb (ix2 (0 : Fin 1) k))
    hd hd0 ha hh hb hw

/-- An index of the output array is in point `t`'s block iff its row is among the block's 5000 rows. -/
theorem mem_blk (t : Fin cfg1.N) (i : S500000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v24).slice (win1_5.rect t)).set ↔ _
  rw [View.set_slice_whole, Rect.mem_set_unit]
  exact Iff.rfl

/-- Row `r` lies in the block of point `r / 5000`: the 100 blocks tile the 500000 rows. -/
theorem cover (i : S500000x1.Idx) : ∃ t : Fin cfg1.N, (cfg1.win 5).flush t = true ∧ i ∈ ((cfg1.win 5).blk t).view.set := by
  have hN : grid1.N = 100 := N_1
  have hi0 : (i 0).val < 500000 := (i 0).isLt
  have hi1 : (i 1).val < 1 := (i 1).isLt
  let t : Fin cfg1.N := ⟨(i 0).val / 5000, by show (i 0).val / 5000 < grid1.N; omega⟩
  obtain ⟨e50, e51, -⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 1 ≤ (i 1).val ∧ (i 1).val < win1_5.index t (1 : Fin 2) * 1 + 1; omega

/-- THE OUTPUT ARRAY after the launch. -/
theorem final (c : Dev nD) :
    (dat1 V c).arrAt 5 cfg1.N = hs2Of (V c main_v21) (V c main_v11_1) (V c main_v11_0) (V c main_v22) (V c main_v23) :=
  (dat1 V c).arrAt_eq_of_cover 5 _ (fun t _ => flushed_eq V c t) cover

end Cert.KernelIdeal.KReg1

end
-- ==== Proof.KReg2.lean ====
/-
  The third kernel's output array as one function of the arrays the kernel finds on entry.

  On its block of 5000 rows the kernel reads three columns — the aggregated messages `agg`, the node's own pre-scaled
  feature `hs`, the normalisation `d` — and the one bias entry `b`, and writes `d[r] · (agg[r] + hs[r]) + b`. Every output
  entry depends only on its own row, so block `t` of the output is block `t` of one whole-array function, and the 100
  blocks tile the 500000 rows.
-/
import proofs.«119362_j87720412054223_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.KReg2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The finished second layer: `d · (agg + hs) + b`, row by row. -/
def outOf (agg hs d : S500000x1.Idx → EReal) (b : S1x1.Idx → EReal) : S500000x1.Idx → EReal :=
  fun i => d i * (agg i + hs i) + b (ix2 (0 : Fin 1) (0 : Fin 1))

/-- Four reads at one row make `outOf` there. -/
theorem outOf_of_reads (agg hs d : S500000x1.Idx → EReal) (b : S1x1.Idx → EReal) (id ia ih i : S500000x1.Idx) (ib : S1x1.Idx)
    (hd : id = i) (ha : ia = i) (hh : ih = i) (hb : ib = ix2 (0 : Fin 1) (0 : Fin 1)) :
    d id * (agg ia + hs ih) + b ib = outOf agg hs d b i := by
  subst hd ha hh hb; rfl

/-- The payload at row `p` of the block. -/
theorem pay_apply (v0 v2 v4 : Vec Ideal S5000x1 .f32) (v8 : Vec Ideal S1x1 .f32) (p : Fin 5000) (u : Fin 1) :
    k2_pay1 v0 v2 v4 v8 (ix2 p u) = v0 (ix2 p u) * (v2 (ix2 p u) + v4 (ix2 p u)) + v8 (ix2 (0 : Fin 1) u) := by
  unfold k2_pay1
  rw [shapeCast_self, shapeCast_self, shapeCast_self, shapeCast_self]
  show v0 (ix2 p u) * (v2 (ix2 p u) + v4 (ix2 p u)) + broadcastTo S5000x1 v8 broadcasts_S1x1_S5000x1 (ix2 p u) = _
  rw [broadcastTo_1b_ab_apply]

/-- The printed index maps over the 100 points: every column window sits at block (t, 0), the bias at (0, 0). -/
theorem idx_facts : ∀ t : Fin cfg2.N, win2_4.index t (0 : Fin 2) = t.val ∧ win2_4.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 :=
  (by decide +kernel : ∀ t : Fin grid2.N, _)

/-- WHAT POINT `t` WRITES BACK is block `t` of `outOf` of the arrays the kernel found. -/
theorem flushed_eq (c : Dev nD) (t : Fin cfg2.N) :
    (dat2 V c).flushed 4 t
      = ((cfg2.win 4).blk t).view.read (Elt Ideal) (outOf (V c main_v34) (V c main_v24) (V c main_v11_0) (V c main_v35)) := by
  show (cfg2.win 4).cut (grid2.coords t) ((dat2 V c).after 4 t) = _
  rw [after2_4]
  unfold out2_4
  rw [View.canon_unit_zero hz]
  simp only [View.ld_unit_zero (S := S5000x1) hz, View.ld_unit_zero (S := S1x1) hz]
  obtain ⟨e40, e41, e00, e01, e10, e11, e20, e21, e30, e31⟩ := idx_facts t
  funext j
  obtain ⟨p, u, rfl⟩ : ∃ (p : Fin 5000) (u : Fin 1), j = ix2 p u := ⟨j 0, j 1, eq_ix2 j⟩
  have hu : u.val = 0 := by omega
  show k2_pay1 (iblk2 V c 2 t) (iblk2 V c 0 t) (iblk2 V c 1 t) (iblk2 V c 3 t) (ix2 p u)
      = outOf (V c main_v34) (V c main_v24) (V c main_v11_0) (V c main_v35) (((cfg2.win 4).blk t).view.emb (ix2 p u))
  refine (pay_apply _ _ _ _ p u).trans ?_
  have h2 : ((cfg2.win 2).blk t).view.emb (ix2 p u) = ((cfg2.win 4).blk t).view.emb (ix2 p u) := by
    funext a; apply Fin.ext
    match a with
    | ⟨0, _⟩ => show win2_2.index t (0 : Fin 2) * 5000 + 1 * p.val = win2_4.index t (0 : Fin 2) * 5000 + 1 * p.val; omega
    | ⟨1, _⟩ => show win2_2.index t (1 : Fin 2) * 1 + 1 * u.val = win2_4.index t (1 : Fin 2) * 1 + 1 * u.val; omega
  have h0 : ((cfg2.win 0).blk t).view.emb (ix2 p u) = ((cfg2.win 4).blk t).view.emb (ix2 p u) := by
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 1 + 1 * u.val = win2_4.index t (1 : Fin 2) * 1 + 1 * u.val; omega
  have h1 : ((cfg2.win 1).blk t).view.emb (ix2 p u) = ((cfg2.win 4).blk t).view.emb (ix2 p u) := by
    funext a; apply Fin.ext
    match a with
    | ⟨0, _⟩ => show win2_1.index t (0 : Fin 2) * 5000 + 1 * p.val = win2_4.index t (0 : Fin 2) * 5000 + 1 * p.val; omega
    | ⟨1, _⟩ => show win2_1.index t (1 : Fin 2) * 1 + 1 * u.val = win2_4.index t (1 : Fin 2) * 1 + 1 * u.val; omega
  have h3 : ((cfg2.win 3).blk t).view.emb (ix2 (0 : Fin 1) u) = ix2 (0 : Fin 1) (0 : Fin 1) := by
    funext a; apply Fin.ext
    match a with
    | ⟨0, _⟩ => show win2_3.index t (0 : Fin 2) * 1 + 1 * 0 = 0; omega
    | ⟨1, _⟩ => show win2_3.index t (1 : Fin 2) * 1 + 1 * u.val = 0; omega
  exact outOf_of_reads (V c main_v34) (V c main_v24) (V c main_v11_0) (V c main_v35) _ _ _ _ _ h2 h0 h1 h3

/-- An index of the output array is in point `t`'s block iff its row is among the block's 5000 rows. -/
theorem mem_blk (t : Fin cfg2.N) (i : S500000x1.Idx) :
    i ∈ ((cfg2.win 4).blk t).view.set ↔ ∀ a : Fin 2, win2_4.index t a * S5000x1.size a ≤ (i a).val ∧ (i a).val < win2_4.index t a * S5000x1.size a + S5000x1.size a := by
  show i ∈ ((View.whole main_v36).slice (win2_4.rect t)).set ↔ _
  rw [View.set_slice_whole, Rect.mem_set_unit]
  exact Iff.rfl

/-- Row `r` lies in the block of point `r / 5000`: the 100 blocks tile the 500000 rows. -/
theorem cover (i : S500000x1.Idx) : ∃ t : Fin cfg2.N, (cfg2.win 4).flush t = true ∧ i ∈ ((cfg2.win 4).blk t).view.set := by
  have hN : grid2.N = 100 := N_2
  have hi0 : (i 0).val < 500000 := (i 0).isLt
  have hi1 : (i 1).val < 1 := (i 1).isLt
  let t : Fin cfg2.N := ⟨(i 0).val / 5000, by show (i 0).val / 5000 < grid2.N; omega⟩
  obtain ⟨e40, e41, -⟩ := idx_facts t
  have ht : t.val = (i 0).val / 5000 := rfl
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 1 ≤ (i 1).val ∧ (i 1).val < win2_4.index t (1 : Fin 2) * 1 + 1; omega

/-- THE OUTPUT ARRAY after the launch. -/
theorem final (c : Dev nD) :
    (dat2 V c).arrAt 4 cfg2.N = outOf (V c main_v34) (V c main_v24) (V c main_v11_0) (V c main_v35) :=
  (dat2 V c).arrAt_eq_of_cover 4 _ (fun t _ => flushed_eq V c t) cover

end Cert.KernelIdeal.KReg2

end
-- ==== Proof.KWalk.lean ====
/-
  Every array the three kernels and the message-passing steps read, traced back through @main.

  Between the launch memory and the result, @main alternates stretches of host operations with kernel launches. A stretch
  leaves every buffer it does not write as it was and each buffer it writes at its operation applied to the operands; a
  kernel launch leaves each of its output arrays at the whole-array function of its inputs found in the three kernel
  modules, and every other buffer (its inputs included) as it was. Walking back from the result:
    result      = the last kernel's output column, flattened;
    that column = d · (agg2 + hs2) + b2, where agg2 scatter-adds, onto each edge's destination row, the row of hs2 its
                  source word selects; hs2 is the second kernel's output, of agg1 (the same scatter of the rows of hs1),
                  hs1 and d, the first kernel's outputs, of the degree column;
    degree      = (a scatter-add of ones onto the destination rows, from zero) + 1;
    the source and destination words are rows 0 and 1 of the edge-index argument.
-/
import proofs.«119362_j87720412054223_2_alg».proof.Proof.Gen.KernelIdeal.Frame
import Idealize.ShloMosaic.Lib.StableHlo.Run
import Idealize.ShloMosaic.PureOps.Ideal
import proofs.«119362_j87720412054223_2_alg».proof.Proof.KReg0
import proofs.«119362_j87720412054223_2_alg».proof.Proof.KReg1
import proofs.«119362_j87720412054223_2_alg».proof.Proof.KReg2

set_option maxRecDepth 16384

noncomputable section

namespace Cert.KernelIdeal.KWalk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A stretch of host operations leaves a buffer none of them writes. -/
macro "untouched" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The closing reshape and the third kernel -/

theorem w7_v37 : (W7 m ρ c (Proc.devRef .tc main_v37) : S500000.Idx → EReal) = shapeCast S500000 (W6 m ρ c (Proc.devRef .tc main_v36) : S500000x1.Idx → EReal) shapeCasts_S500000x1_S500000 := by
  show StableHlo.after hostOps3 _ (Proc.devRef .tc main_v37) = _
  after_results <;> rfl

theorem w6_v36 : (W6 m ρ c (Proc.devRef .tc main_v36) : S500000x1.Idx → EReal)
    = KReg2.outOf (W5 m ρ c (Proc.devRef .tc main_v34) : S500000x1.Idx → EReal) (W5 m ρ c (Proc.devRef .tc main_v24) : S500000x1.Idx → EReal) (W5 m ρ c (Proc.devRef .tc main_v11_0) : S500000x1.Idx → EReal) (W5 m ρ c (Proc.devRef .tc main_v35) : S1x1.Idx → EReal) :=
  (W6_arr m ρ c 4).trans (KReg2.final (V5 m ρ) c)

/-! ## The third stretch: the second layer's messages -/

theorem w5_v34 : (W5 m ρ c (Proc.devRef .tc main_v34) : S500000x1.Idx → EReal)
    = Host.scatterAdd (F := Ideal) (φ := .f32) scatter_S500000x1_S5000000x1_S5000000x1_1_0_0_1 (broadcastInDim S500000x1 ![] bcast_S_S500000x1 (constant (F := Ideal) S_ .f32 0x00000000#32)) (broadcastInDim S5000000x1 ![0] bcast_S5000000_S5000000x1_0 (W4 m ρ c (Proc.devRef .tc main_v3) : S5000000.Idx → BitVec 32))
        (Host.gather gather_S500000x1_S5000000x1_S5000000x1_1_0_n_n_0_1_11 (W4 m ρ c (Proc.devRef .tc main_v24) : S500000x1.Idx → EReal) (broadcastInDim S5000000x1 ![0] bcast_S5000000_S5000000x1_0 (select (cmpi .slt (W4 m ρ c (Proc.devRef .tc main_v1) : S5000000.Idx → BitVec 32) (broadcastInDim S5000000 ![] bcast_S_S5000000 (constantI S_ 32 0#32))) (addi (W4 m ρ c (Proc.devRef .tc main_v1) : S5000000.Idx → BitVec 32) (broadcastInDim S5000000 ![] bcast_S_S5000000 (constantI S_ 32 500000#32))) (W4 m ρ c (Proc.devRef .tc main_v1) : S5000000.Idx → BitVec 32)))) := by
  show StableHlo.after hostOps2 _ (Proc.devRef .tc main_v34) = _
  after_results <;> rfl

theorem w5_v35 : (W5 m ρ c (Proc.devRef .tc main_v35) : S1x1.Idx → EReal) = shapeCast S1x1 (W4 m ρ c (Proc.devRef .tc main_arg4) : S1.Idx → EReal) shapeCasts_S1_S1x1 := by
  show StableHlo.after hostOps2 _ (Proc.devRef .tc main_v35) = _
  after_results <;> rfl

theorem w5_v24 : (W5 m ρ c (Proc.devRef .tc main_v24) : S500000x1.Idx → EReal) = (W4 m ρ c (Proc.devRef .tc main_v24) : S500000x1.Idx → EReal) := by
  untouched

theorem w5_v11_0 : (W5 m ρ c (Proc.devRef .tc main_v11_0) : S500000x1.Idx → EReal) = (W4 m ρ c (Proc.devRef .tc main_v11_0) : S500000x1.Idx → EReal) := by
  untouched

/-! ## The second kernel -/

theorem w4_v24 : (W4 m ρ c (Proc.devRef .tc main_v24) : S500000x1.Idx → EReal)
    = KReg1.hs2Of (W3 m ρ c (Proc.devRef .tc main_v21) : S500000x16.Idx → EReal) (W3 m ρ c (Proc.devRef .tc main_v11_1) : S500000x16.Idx → EReal) (W3 m ρ c (Proc.devRef .tc main_v11_0) : S500000x1.Idx → EReal) (W3 m ρ c (Proc.devRef .tc main_v22) : S1x16.Idx → EReal) (W3 m ρ c (Proc.devRef .tc main_v23) : S1x16.Idx → EReal) :=
  (W4_arr m ρ c 5).trans (KReg1.final (V3 m ρ) c)

theorem w4_v11_0 : (W4 m ρ c (Proc.devRef .tc main_v11_0) : S500000x1.Idx → EReal) = (W3 m ρ c (Proc.devRef .tc main_v11_0) : S500000x1.Idx → EReal) :=
  (W4_arr m ρ c 2).trans (((dat1 (V3 m ρ) c).arrAt_in 2 rfl _).trans (A_eq1 (V3 m ρ) c 2))

theorem w4_v1 : (W4 m ρ c (Proc.devRef .tc main_v1) : S5000000.Idx → BitVec 32) = (W3 m ρ c (Proc.devRef .tc main_v1) : S5000000.Idx → BitVec 32) :=
  W4_of_ne m ρ c main_v1 (by decide)

theorem w4_v3 : (W4 m ρ c (Proc.devRef .tc main_v3) : S5000000.Idx → BitVec 32) = (W3 m ρ c (Proc.devRef .tc main_v3) : S5000000.Idx → BitVec 32) :=
  W4_of_ne m ρ c main_v3 (by decide)

theorem w4_arg4 : (W4 m ρ c (Proc.devRef .tc main_arg4) : S1.Idx → EReal) = (W3 m ρ c (Proc.devRef .tc main_arg4) : S1.Idx → EReal) :=
  W4_of_ne m ρ c main_arg4 (by decide)

/-! ## The second stretch: the first layer's messages -/

theorem w3_v21 : (W3 m ρ c (Proc.devRef .tc main_v21) : S500000x16.Idx → EReal)
    = Host.scatterAdd (F := Ideal) (φ := .f32) scatter_S500000x16_S5000000x1_S5000000x16_1_0_0_1 (broadcastInDim S500000x16 ![] bcast_S_S500000x16 (constant (F := Ideal) S_ .f32 0x00000000#32)) (broadcastInDim S5000000x1 ![0] bcast_S5000000_S5000000x1_0 (W2 m ρ c (Proc.devRef .tc main_v3) : S5000000.Idx → BitVec 32))
        (Host.gather gather_S500000x16_S5000000x1_S5000000x16_1_0_n_n_0_1_116 (W2 m ρ c (Proc.devRef .tc main_v11_1) : S500000x16.Idx → EReal) (broadcastInDim S5000000x1 ![0] bcast_S5000000_S5000000x1_0 (select (cmpi .slt (W2 m ρ c (Proc.devRef .tc main_v1) : S5000000.Idx → BitVec 32) (broadcastInDim S5000000 ![] bcast_S_S5000000 (constantI S_ 32 0#32))) (addi (W2 m ρ c (Proc.devRef .tc main_v1) : S5000000.Idx → BitVec 32) (broadcastInDim S5000000 ![] bcast_S_S5000000 (constantI S_ 32 500000#32))) (W2 m ρ c (Proc.devRef .tc main_v1) : S5000000.Idx → BitVec 32)))) := by
  show StableHlo.after hostOps1 _ (Proc.devRef .tc main_v21) = _
  after_results <;> rfl

theorem w3_v22 : (W3 m ρ c (Proc.devRef .tc main_v22) : S1x16.Idx → EReal) = shapeCast S1x16 (W2 m ρ c (Proc.devRef .tc main_arg2) : S16.Idx → EReal) shapeCasts_S16_S1x16 := by
  show StableHlo.after hostOps1 _ (Proc.devRef .tc main_v22) = _
  after_results <;> rfl

theorem w3_v23 : (W3 m ρ c (Proc.devRef .tc main_v23) : S1x16.Idx → EReal) = shapeCast S1x16 (W2 m ρ c (Proc.devRef .tc main_arg3) : S16x1.Idx → EReal) shapeCasts_S16x1_S1x16 := by
  show StableHlo.after hostOps1 _ (Proc.devRef .tc main_v23) = _
  after_results <;> rfl

theorem w3_v11_1 : (W3 m ρ c (Proc.devRef .tc main_v11_1) : S500000x16.Idx → EReal) = (W2 m ρ c (Proc.devRef .tc main_v11_1) : S500000x16.Idx → EReal) := by
  untouched

theorem w3_v11_0 : (W3 m ρ c (Proc.devRef .tc main_v11_0) : S500000x1.Idx → EReal) = (W2 m ρ c (Proc.devRef .tc main_v11_0) : S500000x1.Idx → EReal) := by
  untouched

theorem w3_v1 : (W3 m ρ c (Proc.devRef .tc main_v1) : S5000000.Idx → BitVec 32) = (W2 m ρ c (Proc.devRef .tc main_v1) : S5000000.Idx → BitVec 32) := by
  untouched

theorem w3_v3 : (W3 m ρ c (Proc.devRef .tc main_v3) : S5000000.Idx → BitVec 32) = (W2 m ρ c (Proc.devRef .tc main_v3) : S5000000.Idx → BitVec 32) := by
  untouched

theorem w3_arg4 : (W3 m ρ c (Proc.devRef .tc main_arg4) : S1.Idx → EReal) = (W2 m ρ c (Proc.devRef .tc main_arg4) : S1.Idx → EReal) := by
  untouched

/-! ## The first kernel -/

theorem w2_v11_0 : (W2 m ρ c (Proc.devRef .tc main_v11_0) : S500000x1.Idx → EReal) = KReg0.dinvOf (W1 m ρ c (Proc.devRef .tc main_v10) : S500000x1.Idx → EReal) :=
  (W2_arr m ρ c 3).trans (KReg0.final3 (V1 m ρ) c)

theorem w2_v11_1 : (W2 m ρ c (Proc.devRef .tc main_v11_1) : S500000x16.Idx → EReal)
    = KReg0.hs1Of (W1 m ρ c (Proc.devRef .tc main_v10) : S500000x1.Idx → EReal) (W1 m ρ c (Proc.devRef .tc main_arg0) : S500000x1.Idx → EReal) (W1 m ρ c (Proc.devRef .tc main_arg1) : S1x16.Idx → EReal) :=
  (W2_arr m ρ c 4).trans (KReg0.final4 (V1 m ρ) c)

theorem w2_v1 : (W2 m ρ c (Proc.devRef .tc main_v1) : S5000000.Idx → BitVec 32) = (W1 m ρ c (Proc.devRef .tc main_v1) : S5000000.Idx → BitVec 32) :=
  W2_of_ne m ρ c main_v1 (by decide)

theorem w2_v3 : (W2 m ρ c (Proc.devRef .tc main_v3) : S5000000.Idx → BitVec 32) = (W1 m ρ c (Proc.devRef .tc main_v3) : S5000000.Idx → BitVec 32) :=
  W2_of_ne m ρ c main_v3 (by decide)

theorem w2_arg2 : (W2 m ρ c (Proc.devRef .tc main_arg2) : S16.Idx → EReal) = (W1 m ρ c (Proc.devRef .tc main_arg2) : S16.Idx → EReal) :=
  W2_of_ne m ρ c main_arg2 (by decide)

theorem w2_arg3 : (W2 m ρ c (Proc.devRef .tc main_arg3) : S16x1.Idx → EReal) = (W1 m ρ c (Proc.devRef .tc main_arg3) : S16x1.Idx → EReal) :=
  W2_of_ne m ρ c main_arg3 (by decide)

theorem w2_arg4 : (W2 m ρ c (Proc.devRef .tc main_arg4) : S1.Idx → EReal) = (W1 m ρ c (Proc.devRef .tc main_arg4) : S1.Idx → EReal) :=
  W2_of_ne m ρ c main_arg4 (by decide)

/-! ## The first stretch: the edge words and the degree -/

/-- The destination words and the source words of the 5000000 edges: rows 1 and 0 of the edge-index argument, flattened. -/
abbrev dstArr : S5000000.Idx → BitVec 32 := (shapeCast S5000000 (extractStridedSlice S1x5000000 ![1, 0] (m ((c : Thread nD τ).loc main_arg5) : S2x5000000.Idx → BitVec 32) slices_S2x5000000_S1x5000000_1_0) shapeCasts_S1x5000000_S5000000)
abbrev srcArr : S5000000.Idx → BitVec 32 := (shapeCast S5000000 (extractStridedSlice S1x5000000 ![0, 0] (m ((c : Thread nD τ).loc main_arg5) : S2x5000000.Idx → BitVec 32) slices_S2x5000000_S1x5000000_0_0) shapeCasts_S1x5000000_S5000000)

theorem w1_v3 : (W1 m ρ c (Proc.devRef .tc main_v3) : S5000000.Idx → BitVec 32) = dstArr m c := by
  show StableHlo.after hostOps0 _ (Proc.devRef .tc main_v3) = _
  after_results <;> rfl

theorem w1_v1 : (W1 m ρ c (Proc.devRef .tc main_v1) : S5000000.Idx → BitVec 32) = srcArr m c := by
  show StableHlo.after hostOps0 _ (Proc.devRef .tc main_v1) = _
  after_results <;> rfl

theorem w1_v10 : (W1 m ρ c (Proc.devRef .tc main_v10) : S500000x1.Idx → EReal)
    = shapeCast S500000x1 (addf (Host.scatterAdd (F := Ideal) (φ := .f32) scatter_S500000_S5000000x1_S5000000_n_0_0_1 (broadcastInDim S500000 ![] bcast_S_S500000 (constant (F := Ideal) S_ .f32 0x00000000#32)) (broadcastInDim S5000000x1 ![0] bcast_S5000000_S5000000x1_0 (dstArr m c)) (broadcastInDim S5000000 ![] bcast_S_S5000000 (constant (F := Ideal) S_ .f32 0x3F800000#32))) (broadcastInDim S500000 ![] bcast_S_S500000 (constant (F := Ideal) S_ .f32 0x3F800000#32))) shapeCasts_S500000_S500000x1 := by
  show StableHlo.after hostOps0 _ (Proc.devRef .tc main_v10) = _
  after_results <;> rfl

theorem w1_arg0 : (W1 m ρ c (Proc.devRef .tc main_arg0) : S500000x1.Idx → EReal) = m ((c : Thread nD τ).loc main_arg0) := by
  refine Eq.trans ?_ (rfl : W0 m ρ c (Proc.devRef .tc main_arg0) = _)
  untouched
theorem w1_arg1 : (W1 m ρ c (Proc.devRef .tc main_arg1) : S1x16.Idx → EReal) = m ((c : Thread nD τ).loc main_arg1) := by
  refine Eq.trans ?_ (rfl : W0 m ρ c (Proc.devRef .tc main_arg1) = _)
  untouched
theorem w1_arg2 : (W1 m ρ c (Proc.devRef .tc main_arg2) : S16.Idx → EReal) = m ((c : Thread nD τ).loc main_arg2) := by
  refine Eq.trans ?_ (rfl : W0 m ρ c (Proc.devRef .tc main_arg2) = _)
  untouched
theorem w1_arg3 : (W1 m ρ c (Proc.devRef .tc main_arg3) : S16x1.Idx → EReal) = m ((c : Thread nD τ).loc main_arg3) := by
  refine Eq.trans ?_ (rfl : W0 m ρ c (Proc.devRef .tc main_arg3) = _)
  untouched
theorem w1_arg4 : (W1 m ρ c (Proc.devRef .tc main_arg4) : S1.Idx → EReal) = m ((c : Thread nD τ).loc main_arg4) := by
  refine Eq.trans ?_ (rfl : W0 m ρ c (Proc.devRef .tc main_arg4) = _)
  untouched

end Cert.KernelIdeal.KWalk

end
-- ==== Proof.Spec.lean ====
/-
  A two-layer graph convolution with symmetric degree normalisation, written twice over the extended reals.

  Nodes `N`, edges `E`. Edge `e` is received by the node `hit e` (or by nobody: `none`, an edge whose destination
  word falls outside the node range is dropped by the accumulation) and carries the features of the node `row e`.
  Every node also receives from itself (a self-loop).

  * The FOLDED form keeps the self-loop out of the edge list: the degree is (number of received edges) + 1, each
    layer pre-scales a node's features by d = deg^(-1/2), sums the pre-scaled features over the received edges, adds
    the node's own pre-scaled features, and scales by d once more.
  * The EDGE-LIST form appends one self-loop edge per node to the edge list (edges `E ⊕ N`), gives edge e the weight
    d(source) · d(destination), and sums weight × feature over all received edges of the longer list. Its d is guarded:
    d = deg^(-1/2) where deg > 0 (with deg clamped below at 1), else 0.

  The two agree when every input is a real number (Proof/GcnAlgebra.lean): then every degree is a real ≥ 1, the guard is
  idle, every d is a positive real, and the weights distribute over the finite sums.
-/
import Idealize.ShloMosaic.PureOps.Ideal

noncomputable section

namespace Cert.Gcn

open Idealize.ShloMosaic

/-- The word of the float 1.0 and of the float +0.0, read exactly. -/
abbrev c1 : EReal := Ideal.ofBits .f32 0x3F800000#32
abbrev c0 : EReal := Ideal.ofBits .f32 0x00000000#32

variable {E N : Type} [Fintype E] [Fintype N] [DecidableEq N]
variable (hit : E → Option N) (row rowD : E → N)
variable (x : N → EReal) (w1 b1 w2 : Fin 16 → EReal) (b2 : EReal)

/-! ## The folded form -/

/-- The edges node `i` receives. -/
def into (i : N) : Finset E := Finset.univ.filter fun e => hit e = some i

/-- Degree: one per received edge, accumulated from zero, plus one for the self-loop. -/
def kdeg (i : N) : EReal := (c0 + ∑ _e ∈ into hit i, c1) + c1
def kdinv (i : N) : EReal := Ideal.rsqrt (kdeg hit i)
/-- Layer 1's pre-scaled features d·(x·w1). -/
def khs1 (i : N) (c : Fin 16) : EReal := kdinv hit i * (x i * w1 c)
def kagg1 (i : N) (c : Fin 16) : EReal := c0 + ∑ e ∈ into hit i, khs1 hit x w1 (row e) c
/-- Layer 1's output after the rectifier. -/
def kh1 (i : N) (c : Fin 16) : EReal :=
  max (kdinv hit i * (kagg1 hit row x w1 i c + khs1 hit x w1 i c) + b1 c) c0
def kh2 (i : N) : EReal := ∑ c : Fin 16, kh1 hit row x w1 b1 i c * w2 c
/-- Layer 2's pre-scaled feature d·(h·w2). -/
def khs2 (i : N) : EReal := kdinv hit i * kh2 hit row x w1 b1 w2 i
def kagg2 (i : N) : EReal := c0 + ∑ e ∈ into hit i, khs2 hit row x w1 b1 w2 (row e)
def kout (i : N) : EReal := kdinv hit i * (kagg2 hit row x w1 b1 w2 i + khs2 hit row x w1 b1 w2 i) + b2

/-! ## The edge-list form, over the edges followed by one self-loop per node -/

def hitR : E ⊕ N → Option N := Sum.elim hit some
/-- The node whose features an edge of the longer list carries, and the node its destination word names when read as a
    (clamped) row number: for a self-loop both are the node itself. -/
def rowR : E ⊕ N → N := Sum.elim row id
def rowDR : E ⊕ N → N := Sum.elim rowD id
def intoR (i : N) : Finset (E ⊕ N) := Finset.univ.filter fun e => hitR hit e = some i

def rdeg (i : N) : EReal := c0 + ∑ _e ∈ intoR hit i, c1
def rdinv (i : N) : EReal := if c0 < rdeg hit i then Ideal.rsqrt (max (rdeg hit i) c1) else c0
def rnorm (e : E ⊕ N) : EReal := rdinv hit (rowR row e) * rdinv hit (rowDR rowD e)
def ragg1 (i : N) (c : Fin 16) : EReal :=
  c0 + ∑ e ∈ intoR hit i, (x (rowR row e) * w1 c) * rnorm hit row rowD e
def rh1 (i : N) (c : Fin 16) : EReal := max (ragg1 hit row rowD x w1 i c + b1 c) c0
def rhw (i : N) : EReal := ∑ c : Fin 16, rh1 hit row rowD x w1 b1 i c * w2 c
def ragg2 (i : N) : EReal :=
  c0 + ∑ e ∈ intoR hit i, rhw hit row rowD x w1 b1 w2 (rowR row e) * rnorm hit row rowD e
def rout (i : N) : EReal := ragg2 hit row rowD x w1 b1 w2 i + b2

end Cert.Gcn

end
-- ==== Proof.LibScatterRows.lean ====
/-
  An accumulating scatter of rows read at an index, over the extended reals.

  `x.at[idx].add(upd)` for a table `x : [n, k]`, a column `idx : [m, 1]` of row numbers and updates `upd : [m, k]` (and the
  same for a flat `x : [n]`, `upd : [m]`): update row `e` is added to the table's row `idx[e, 0]`, the word read as a signed
  integer and NOT clamped — a row number outside `[0, n)` drops the update. So entry `(i, c)` of the result is the
  operand's entry plus the sum, over the update rows `e` that land on `i`, of `upd[e, c]`.
-/
import Idealize.ShloMosaic.Lib.ValueIdx
import Idealize.ShloMosaic.PureOps.Ideal.Laws

noncomputable section

namespace Cert.LibScatterRows

open Idealize.ShloMosaic Idealize.ShloMosaic.ValueIdx

/-- Where a row-number word lands on an axis of extent `n`: read signed, not clamped; nowhere when outside. -/
def landing (n : Nat) {w : Nat} (b : BitVec w) : Option (Fin n) :=
  if h : 0 ≤ b.toInt ∧ b.toInt < (n : Int) then some ⟨b.toInt.toNat, by omega⟩ else none

/-- The dimension numbers of a scatter of whole rows into an `[n, k]` table at a column `[m, 1]` of row numbers. -/
abbrev rowsDims (n k m : Nat) (wf : ScatterDims.WF ⟨2, ![n, k]⟩ ⟨2, ![m, 1]⟩ ⟨2, ![m, k]⟩ [1] [0] [0] 1) :
    ScatterDims ⟨2, ![n, k]⟩ ⟨2, ![m, 1]⟩ ⟨2, ![m, k]⟩ where
  updateWindowDims := [1]
  insertedWindowDims := [0]
  scatterDimsToOperandDims := [0]
  indexVectorDim := 1
  wf := wf

/-- The dimension numbers of a scatter of scalars into a flat `[n]` array at a column `[m, 1]` of positions. -/
abbrev flatDims (n m : Nat) (wf : ScatterDims.WF ⟨1, ![n]⟩ ⟨2, ![m, 1]⟩ ⟨1, ![m]⟩ [] [0] [0] 1) :
    ScatterDims ⟨1, ![n]⟩ ⟨2, ![m, 1]⟩ ⟨1, ![m]⟩ where
  updateWindowDims := []
  insertedWindowDims := [0]
  scatterDimsToOperandDims := [0]
  indexVectorDim := 1
  wf := wf

section rows
variable {n k m w : Nat} (wf : ScatterDims.WF ⟨2, ![n, k]⟩ ⟨2, ![m, 1]⟩ ⟨2, ![m, k]⟩ [1] [0] [0] 1)
  (idx : IVec ⟨2, ![m, 1]⟩ w) (e : Fin m) (c' : Fin k)

/-- On the row axis the window of update `(e, c')` starts at the row number `idx[e, 0]`, read signed. -/
theorem rows_start0 : (rowsDims n k m wf).start (ix2 e c') idx 0 = (idx (ix2 e (0 : Fin 1))).toInt := by
  unfold ScatterDims.start
  rw [dif_pos (show (0 : Fin 2) ∈ (rowsDims n k m wf).scatterDimsToOperandDims from List.mem_singleton.mpr rfl)]
  have hsi : (rowsDims n k m wf).siIdx (ix2 e c') ⟨List.idxOf (0 : Fin 2) (rowsDims n k m wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the index vector does not name, the window starts at `0`. -/
theorem rows_start1 : (rowsDims n k m wf).start (ix2 e c') idx 1 = 0 := by
  unfold ScatterDims.start
  rw [dif_neg (show (1 : Fin 2) ∉ [(0 : Fin 2)] from by decide)]

/-- The row axis is an inserted window axis: the window coordinate there is `0`. -/
theorem rows_window0 : (rowsDims n k m wf).window (ix2 e c') 0 = 0 := by
  unfold ScatterDims.window
  rw [dif_neg]
  simp [ScatterDims.sKept, Shape.kept, List.mem_filter, List.mem_finRange]

/-- The column axis carries the update's one window axis: the window coordinate there is `c'`. -/
theorem rows_window1 : (rowsDims n k m wf).window (ix2 e c') 1 = c'.val := by
  unfold ScatterDims.window
  rw [dif_pos (by simp [ScatterDims.sKept, Shape.kept, List.mem_filter, List.mem_finRange])]
  rfl

/-- Update `(e, c')` lands on `(i, c)` exactly when its row number lands on `i` and `c' = c`: the result index is
    `(idx[e, 0] + 0, 0 + c')`, defined when the row number is inside `[0, n)` (the column always is). -/
theorem rows_resultIdx_iff (i : Fin n) (c : Fin k) :
    (rowsDims n k m wf).resultIdx? (ix2 e c') idx = some (ix2 i c)
      ↔ landing n (idx (ix2 e (0 : Fin 1))) = some i ∧ c' = c := by
  unfold ScatterDims.resultIdx? landing
  by_cases hb : 0 ≤ (idx (ix2 e (0 : Fin 1))).toInt ∧ (idx (ix2 e (0 : Fin 1))).toInt < (n : Int)
  · have hall : ∀ a : Fin 2, 0 ≤ (rowsDims n k m wf).start (ix2 e c') idx a + (rowsDims n k m wf).window (ix2 e c') a
        ∧ (rowsDims n k m wf).start (ix2 e c') idx a + (rowsDims n k m wf).window (ix2 e c') a
            < ((⟨2, ![n, k]⟩ : Shape).size a : Int) := by
      intro a
      match a with
      | ⟨0, _⟩ =>
        show 0 ≤ (rowsDims n k m wf).start (ix2 e c') idx 0 + (rowsDims n k m wf).window (ix2 e c') 0
          ∧ (rowsDims n k m wf).start (ix2 e c') idx 0 + (rowsDims n k m wf).window (ix2 e c') 0 < (n : Int)
        rw [rows_start0, rows_window0]; omega
      | ⟨1, _⟩ =>
        show 0 ≤ (rowsDims n k m wf).start (ix2 e c') idx 1 + (rowsDims n k m wf).window (ix2 e c') 1
          ∧ (rowsDims n k m wf).start (ix2 e c') idx 1 + (rowsDims n k m wf).window (ix2 e c') 1 < (k : Int)
        rw [rows_start1, rows_window1]; have := c'.isLt; omega
    rw [dif_pos hall, dif_pos hb]
    constructor
    · intro h
      have h := Option.some.inj h
      have h0 := congrArg Fin.val (congrFun h 0)
      have h1 := congrArg Fin.val (congrFun h 1)
      change ((rowsDims n k m wf).start (ix2 e c') idx 0 + (rowsDims n k m wf).window (ix2 e c') 0).toNat = i.val at h0
      change ((rowsDims n k m wf).start (ix2 e c') idx 1 + (rowsDims n k m wf).window (ix2 e c') 1).toNat = c.val at h1
      rw [rows_start0, rows_window0] at h0
      rw [rows_start1, rows_window1] at h1
      refine ⟨congrArg some (Fin.ext ?_), Fin.ext ?_⟩
      · show (idx (ix2 e (0 : Fin 1))).toInt.toNat = i.val
        omega
      · omega
    · rintro ⟨h, hc⟩
      have h := congrArg Fin.val (Option.some.inj h)
      change (idx (ix2 e (0 : Fin 1))).toInt.toNat = i.val at h
      refine congrArg some ?_
      funext a
      refine Fin.ext ?_
      match a with
      | ⟨0, _⟩ =>
        show ((rowsDims n k m wf).start (ix2 e c') idx 0 + (rowsDims n k m wf).window (ix2 e c') 0).toNat = i.val
        rw [rows_start0, rows_window0]; omega
      | ⟨1, _⟩ =>
        show ((rowsDims n k m wf).start (ix2 e c') idx 1 + (rowsDims n k m wf).window (ix2 e c') 1).toNat = c.val
        rw [rows_start1, rows_window1, hc]; omega
  · have hnall : ¬ ∀ a : Fin 2, 0 ≤ (rowsDims n k m wf).start (ix2 e c') idx a + (rowsDims n k m wf).window (ix2 e c') a
        ∧ (rowsDims n k m wf).start (ix2 e c') idx a + (rowsDims n k m wf).window (ix2 e c') a
            < ((⟨2, ![n, k]⟩ : Shape).size a : Int) := by
      intro hall
      have h0 := hall 0
      change 0 ≤ (rowsDims n k m wf).start (ix2 e c') idx 0 + (rowsDims n k m wf).window (ix2 e c') 0
          ∧ (rowsDims n k m wf).start (ix2 e c') idx 0 + (rowsDims n k m wf).window (ix2 e c') 0 < (n : Int) at h0
      rw [rows_start0, rows_window0] at h0
      exact hb (by omega)
    rw [dif_neg hnall, dif_neg hb]
    constructor
    · intro h; cases h
    · rintro ⟨h, _⟩; cases h

end rows

/-- THE ROW SCATTER READ AT `(i, c)`: the operand there plus the updates of the rows that land on `i`, column `c`. -/
theorem scatterAdd_rows_apply {n k m w : Nat} {φ : FTy}
    (wf : ScatterDims.WF ⟨2, ![n, k]⟩ ⟨2, ![m, 1]⟩ ⟨2, ![m, k]⟩ [1] [0] [0] 1)
    (x : FVec Ideal ⟨2, ![n, k]⟩ φ) (idx : IVec ⟨2, ![m, 1]⟩ w) (upd : FVec Ideal ⟨2, ![m, k]⟩ φ) (i : Fin n) (c : Fin k) :
    Host.scatterAdd (rowsDims n k m wf) x idx upd (ix2 i c)
      = x (ix2 i c) + ∑ e ∈ Finset.univ.filter (fun e : Fin m => landing n (idx (ix2 e (0 : Fin 1))) = some i), upd (ix2 e c) := by
  show Ideal.hostScatterAdd (rowsDims n k m wf) x idx upd (ix2 i c) = _
  unfold Ideal.hostScatterAdd
  congr 1
  rw [Finset.sum_filter, sum_idx2, Finset.sum_filter]
  refine Finset.sum_congr rfl fun e _ => ?_
  simp only [rows_resultIdx_iff]
  by_cases hl : landing n (idx (ix2 e (0 : Fin 1))) = some i
  · simp only [hl, true_and, if_true]
    rw [Finset.sum_ite_eq' Finset.univ c (fun c' => upd (ix2 e c'))]
    simp
  · simp only [hl, false_and, if_false]
    exact Finset.sum_const_zero

/-- A rank-1 index set is its one coordinate range, so a sum over it is the sum over the coordinate. -/
theorem sum_idx1 {M : Type*} [AddCommMonoid M] {n0 : Nat} (f : (⟨1, ![n0]⟩ : Shape).Idx → M) :
    ∑ j, f j = ∑ a : Fin n0, f (ix1 a) := by
  let eqv : (⟨1, ![n0]⟩ : Shape).Idx ≃ Fin n0 := ⟨fun j => j 0, ix1, fun j => (eq_ix1 j).symm, fun _ => rfl⟩
  rw [← Equiv.sum_comp eqv.symm f]
  rfl

section flat
variable {n m w : Nat} (wf : ScatterDims.WF ⟨1, ![n]⟩ ⟨2, ![m, 1]⟩ ⟨1, ![m]⟩ [] [0] [0] 1)
  (idx : IVec ⟨2, ![m, 1]⟩ w) (e : Fin m)

/-- The window of update `e` starts at the position `idx[e, 0]`, read signed. -/
theorem flat_start0 : (flatDims n m wf).start (ix1 e) idx 0 = (idx (ix2 e (0 : Fin 1))).toInt := by
  unfold ScatterDims.start
  rw [dif_pos (show (0 : Fin 1) ∈ (flatDims n m wf).scatterDimsToOperandDims from List.mem_singleton.mpr rfl)]
  have hsi : (flatDims n m wf).siIdx (ix1 e) ⟨List.idxOf (0 : Fin 1) (flatDims n m wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: the window coordinate there is `0`. -/
theorem flat_window0 : (flatDims n m wf).window (ix1 e) 0 = 0 := by
  unfold ScatterDims.window
  rw [dif_neg]
  simp [ScatterDims.sKept, Shape.kept, List.mem_filter, List.mem_finRange]

/-- Update `e` lands on `i` exactly when its position word lands on `i`. -/
theorem flat_resultIdx_iff (i : Fin n) :
    (flatDims n m wf).resultIdx? (ix1 e) idx = some (ix1 i) ↔ landing n (idx (ix2 e (0 : Fin 1))) = some i := by
  unfold ScatterDims.resultIdx? landing
  by_cases hb : 0 ≤ (idx (ix2 e (0 : Fin 1))).toInt ∧ (idx (ix2 e (0 : Fin 1))).toInt < (n : Int)
  · have hall : ∀ a : Fin 1, 0 ≤ (flatDims n m wf).start (ix1 e) idx a + (flatDims n m wf).window (ix1 e) a
        ∧ (flatDims n m wf).start (ix1 e) idx a + (flatDims n m wf).window (ix1 e) a
            < ((⟨1, ![n]⟩ : Shape).size a : Int) := by
      intro a
      match a with
      | ⟨0, _⟩ =>
        show 0 ≤ (flatDims n m wf).start (ix1 e) idx 0 + (flatDims n m wf).window (ix1 e) 0
          ∧ (flatDims n m wf).start (ix1 e) idx 0 + (flatDims n m wf).window (ix1 e) 0 < (n : Int)
        rw [flat_start0, flat_window0]; omega
    rw [dif_pos hall, dif_pos hb]
    constructor
    · intro h
      have h0 := congrArg Fin.val (congrFun (Option.some.inj h) 0)
      change ((flatDims n m wf).start (ix1 e) idx 0 + (flatDims n m wf).window (ix1 e) 0).toNat = i.val at h0
      rw [flat_start0, flat_window0] at h0
      refine congrArg some (Fin.ext ?_)
      show (idx (ix2 e (0 : Fin 1))).toInt.toNat = i.val
      omega
    · intro h
      have h := congrArg Fin.val (Option.some.inj h)
      change (idx (ix2 e (0 : Fin 1))).toInt.toNat = i.val at h
      refine congrArg some ?_
      funext a
      refine Fin.ext ?_
      match a with
      | ⟨0, _⟩ =>
        show ((flatDims n m wf).start (ix1 e) idx 0 + (flatDims n m wf).window (ix1 e) 0).toNat = i.val
        rw [flat_start0, flat_window0]; omega
  · have hnall : ¬ ∀ a : Fin 1, 0 ≤ (flatDims n m wf).start (ix1 e) idx a + (flatDims n m wf).window (ix1 e) a
        ∧ (flatDims n m wf).start (ix1 e) idx a + (flatDims n m wf).window (ix1 e) a
            < ((⟨1, ![n]⟩ : Shape).size a : Int) := by
      intro hall
      have h0 := hall 0
      change 0 ≤ (flatDims n m wf).start (ix1 e) idx 0 + (flatDims n m wf).window (ix1 e) 0
          ∧ (flatDims n m wf).start (ix1 e) idx 0 + (flatDims n m wf).window (ix1 e) 0 < (n : Int) at h0
      rw [flat_start0, flat_window0] at h0
      exact hb (by omega)
    rw [dif_neg hnall, dif_neg hb]
    constructor
    · intro h; cases h
    · intro h; cases h

end flat

/-- THE FLAT SCATTER READ AT `i`: the operand there plus the updates that land on `i`. -/
theorem scatterAdd_flat_apply {n m w : Nat} {φ : FTy}
    (wf : ScatterDims.WF ⟨1, ![n]⟩ ⟨2, ![m, 1]⟩ ⟨1, ![m]⟩ [] [0] [0] 1)
    (x : FVec Ideal ⟨1, ![n]⟩ φ) (idx : IVec ⟨2, ![m, 1]⟩ w) (upd : FVec Ideal ⟨1, ![m]⟩ φ) (i : Fin n) :
    Host.scatterAdd (flatDims n m wf) x idx upd (ix1 i)
      = x (ix1 i) + ∑ e ∈ Finset.univ.filter (fun e : Fin m => landing n (idx (ix2 e (0 : Fin 1))) = some i), upd (ix1 e) := by
  show Ideal.hostScatterAdd (flatDims n m wf) x idx upd (ix1 i) = _
  unfold Ideal.hostScatterAdd
  congr 1
  rw [Finset.sum_filter, sum_idx1, Finset.sum_filter]
  refine Finset.sum_congr rfl fun e _ => ?_
  simp only [flat_resultIdx_iff]

end Cert.LibScatterRows

end
-- ==== Proof.Inst.lean ====
/-
  The graph this certificate's two programs compute on, read off the edge-index array `[2, 5000000]` of 32-bit words:
  500000 nodes, 5000000 edges; edge `e` has source word `ei[0, e]` and destination word `ei[1, e]`.

  * An accumulation (a scatter-add) reads a destination word signed and NOT clamped: the edge is received by that node
    when the word is in `[0, 500000)`, by nobody otherwise (`hit`).
  * A lookup `table[word]` first adds the extent to a negative word (`wrap`: a negative index counts from the end), then
    reads it signed and clamps it into the table (`clampRow`): the row an edge's source word selects is `row`, the row
    its destination word selects is `rowD`. Where an edge is received, `rowD` is the receiving node (`rowD_of_hit`).
-/
import proofs.«119362_j87720412054223_2_alg».proof.Proof.LibScatterRows

noncomputable section

namespace Cert.Gcn.Inst

open Idealize.ShloMosaic Idealize.ShloMosaic.ValueIdx

/-- A negative index word has the extent added: `select (w <s 0) (w + 500000) w`, in the programs' own scalar operations. -/
def wrap (b : BitVec 32) : BitVec 32 :=
  Scalar.select (IntOp.cmpi .slt b 0#32) (IntOp.addi b 500000#32) b

/-- A start-index word read signed and clamped into a table of 500000 rows. -/
def clampRow (b : BitVec 32) : Fin 500000 := ⟨min b.toInt.toNat (500000 - 1), by omega⟩

/-- A word that is not negative is left alone by `wrap`: the signed comparison with `0` fails, so the select keeps it. -/
theorem wrap_of_nonneg (b : BitVec 32) (h : 0 ≤ b.toInt) : wrap b = b := by
  have hs : b.slt 0#32 = false := by
    unfold BitVec.slt
    rw [BitVec.toInt_zero]
    exact decide_eq_false (by omega)
  unfold wrap Scalar.select IntOp.cmpi
  simp only [hs]
  exact if_neg (by decide)

/-- A number below 500000 (< 2^31), as a 32-bit word, reads back signed as itself. -/
theorem toInt_ofNat_small (n : Fin 500000) : (BitVec.ofNat 32 n.val).toInt = (n.val : Int) := by
  have hn := n.isLt
  have h1 : (BitVec.ofNat 32 n.val).toNat = n.val := by
    rw [BitVec.toNat_ofNat]; omega
  rw [BitVec.toInt_eq_toNat_of_lt (by rw [h1]; omega), h1]

/-- A word that lands on node `i` (its signed value is `i`, in `[0, 500000)`) selects row `i`: it is not negative, so
    `wrap` keeps it, and the clamp of a value already inside the table is that value. -/
theorem clampRow_of_landing (b : BitVec 32) (i : Fin 500000) (h : Cert.LibScatterRows.landing 500000 b = some i) :
    clampRow (wrap b) = i := by
  unfold Cert.LibScatterRows.landing at h
  by_cases hb : 0 ≤ b.toInt ∧ b.toInt < ((500000 : Nat) : Int)
  · rw [dif_pos hb] at h
    have hv := congrArg Fin.val (Option.some.inj h)
    change b.toInt.toNat = i.val at hv
    rw [wrap_of_nonneg b hb.1]
    refine Fin.ext ?_
    show min b.toInt.toNat (500000 - 1) = i.val
    have := i.isLt
    omega
  · rw [dif_neg hb] at h; cases h

variable (ei : (⟨2, ![2, 5000000]⟩ : Shape).Idx → BitVec 32)

def srcw (e : Fin 5000000) : BitVec 32 := ei (ix2 (0 : Fin 2) e)
def dstw (e : Fin 5000000) : BitVec 32 := ei (ix2 (1 : Fin 2) e)

/-- The node that receives edge `e`, if any. -/
def hit (e : Fin 5000000) : Option (Fin 500000) := Cert.LibScatterRows.landing 500000 (dstw ei e)
/-- The row edge `e`'s source word selects, and the row its destination word selects. -/
def row (e : Fin 5000000) : Fin 500000 := clampRow (wrap (srcw ei e))
def rowD (e : Fin 5000000) : Fin 500000 := clampRow (wrap (dstw ei e))

/-- Where an edge is received, its destination word, looked up as a row number, selects the receiving node. -/
theorem rowD_of_hit (e : Fin 5000000) (i : Fin 500000) (h : hit ei e = some i) : rowD ei e = i := by
  show clampRow (wrap (dstw ei e)) = i
  exact clampRow_of_landing (dstw ei e) i h

/-- A node's own number, as a 32-bit word, is received by that node and selects that node's row. -/
theorem landing_ofNat (n : Fin 500000) : Cert.LibScatterRows.landing 500000 (BitVec.ofNat 32 n.val) = some n := by
  have hn := n.isLt
  unfold Cert.LibScatterRows.landing
  rw [dif_pos (by rw [toInt_ofNat_small]; omega)]
  refine congrArg some (Fin.ext ?_)
  show (BitVec.ofNat 32 n.val).toInt.toNat = n.val
  rw [toInt_ofNat_small]; omega
theorem clampRow_wrap_ofNat (n : Fin 500000) : clampRow (wrap (BitVec.ofNat 32 n.val)) = n := by
  have hn := n.isLt
  rw [wrap_of_nonneg _ (by rw [toInt_ofNat_small]; omega)]
  refine Fin.ext ?_
  show min (BitVec.ofNat 32 n.val).toInt.toNat (500000 - 1) = n.val
  rw [toInt_ofNat_small]; omega

end Cert.Gcn.Inst

end
-- ==== Proof.LibRowGather.lean ====
/-
  A row gather read at an index: what `x[idx]` of a table `x : [N, D]` at a column of row numbers `idx : [E, 1]` is, and
  the same of a table with a unit middle axis `x : [N, 1, D]`. Result row `e` is the table's row at the start index
  `idx[e, 0]`, read as a signed integer and clamped into `[0, N − 1]` (every start index of a gather is clamped so that
  the slice fits); the other coordinates pass through. So the two tables, one the other with its unit axis dropped,
  gather the same numbers.
-/
import Idealize.ShloMosaic.Lib.ValueIdx
import Idealize.ShloMosaic.Lib.Pipeline.Value

noncomputable section

namespace Cert.LibRowGather

open Idealize.ShloMosaic Idealize.ShloMosaic.ValueIdx

variable {α : Type}

/-- The dimension numbers of a gather of whole rows of an `[N, D]` table at a column `[E, 1]` of row numbers. -/
abbrev rowsDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: read signed, clamped into the table. -/
abbrev rowOf {E w : Nat} (N : Nat) (hN : 0 < N) (idx : IVec ⟨2, ![E, 1]⟩ w) (e : Fin E) : Fin N :=
  ⟨min (idx (ix2 e (0 : Fin 1))).toInt.toNat (N - 1), by omega⟩

/-- THE ROW GATHER READ AT `(e, k)`: the table at the selected row, column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N D E wf) x idx (ix2 e k) = x (ix2 (rowOf N hN idx e) k) := by
  unfold Host.gather
  refine congrArg x ?_
  funext a
  refine Fin.ext ?_
  match a with
  | ⟨0, _⟩ =>
    show (rowsDims N D E wf).start (ix2 e k) idx 0 + (rowsDims N D E wf).batchCoord (ix2 e k) 0
      + (rowsDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e k) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e k) idx 1 + (rowsDims N D E wf).batchCoord (ix2 e k) 1
      + (rowsDims N D E wf).offCoord (ix2 e k) 1 = k.val
    rw [GatherDims.batchCoord_eq_zero _ _ _ List.not_mem_nil]
    unfold GatherDims.start
    rw [dif_neg (show (1 : Fin 2) ∉ [(0 : Fin 2)] from by decide)]
    simp only [Nat.add_zero, Nat.zero_add]
    unfold GatherDims.offCoord
    rw [dif_pos ((GatherDims.mem_sKept _ _).mpr ⟨(show (1 : Fin 2) ∉ [(0 : Fin 2)] from by decide), List.not_mem_nil⟩)]
    rfl

/-- The dimension numbers of a gather of whole rows of an `[N, 1, D]` table at a column `[E, 1]` of row numbers. -/
abbrev rowsDims3 (N D E : Nat) (wf : GatherDims.WF ⟨3, ![N, 1, D]⟩ ⟨2, ![E, 1]⟩ ⟨3, ![E, 1, D]⟩ [1, 2] [0] [] [0] [] 1 ![1, 1, D]) :
    GatherDims ⟨3, ![N, 1, D]⟩ ⟨2, ![E, 1]⟩ ⟨3, ![E, 1, D]⟩ where
  offsetDims := [1, 2]
  collapsedSliceDims := [0]
  operandBatchingDims := []
  startIndicesBatchingDims := []
  startIndexMap := [0]
  indexVectorDim := 1
  sliceSizes := ![1, 1, D]
  wf := wf

/-- THE ROW GATHER OF A TABLE WITH A UNIT MIDDLE AXIS READ AT `(e, u, k)`: the table at the selected row, `(0, k)`. -/
theorem gather_rows3_apply {N D E w : Nat} (hN : 0 < N)
    (wf : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (idx : IVec ⟨2, ![E, 1]⟩ w) (e : Fin E) (u : Fin 1) (k : Fin D) :
    Host.gather (rowsDims3 N D E wf) x idx (ix3 e u k) = x (ix3 (rowOf N hN idx e) (0 : Fin 1) k) := by
  unfold Host.gather
  refine congrArg x ?_
  funext a
  refine Fin.ext ?_
  match a with
  | ⟨0, _⟩ =>
    show (rowsDims3 N D E wf).start (ix3 e u k) idx 0 + (rowsDims3 N D E wf).batchCoord (ix3 e u k) 0
      + (rowsDims3 N D E wf).offCoord (ix3 e u k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowsDims3 N D E wf).startIndexMap from List.mem_singleton.mpr rfl)]
    have hsi : (rowsDims3 N D E wf).siIdx (ix3 e u k) ⟨List.idxOf (0 : Fin 3) (rowsDims3 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims3 N D E wf).start (ix3 e u k) idx 1 + (rowsDims3 N D E wf).batchCoord (ix3 e u k) 1
      + (rowsDims3 N D E wf).offCoord (ix3 e u k) 1 = 0
    rw [GatherDims.batchCoord_eq_zero _ _ _ List.not_mem_nil]
    unfold GatherDims.start
    rw [dif_neg (show (1 : Fin 3) ∉ [(0 : Fin 3)] from by decide)]
    simp only [Nat.add_zero, Nat.zero_add]
    unfold GatherDims.offCoord
    rw [dif_pos ((GatherDims.mem_sKept _ _).mpr ⟨(show (1 : Fin 3) ∉ [(0 : Fin 3)] from by decide), List.not_mem_nil⟩)]
    show u.val = 0
    omega
  | ⟨2, _⟩ =>
    show (rowsDims3 N D E wf).start (ix3 e u k) idx 2 + (rowsDims3 N D E wf).batchCoord (ix3 e u k) 2
      + (rowsDims3 N D E wf).offCoord (ix3 e u k) 2 = k.val
    rw [GatherDims.batchCoord_eq_zero _ _ _ List.not_mem_nil]
    unfold GatherDims.start
    rw [dif_neg (show (2 : Fin 3) ∉ [(0 : Fin 3)] from by decide)]
    simp only [Nat.add_zero, Nat.zero_add]
    unfold GatherDims.offCoord
    rw [dif_pos ((GatherDims.mem_sKept _ _).mpr ⟨(show (2 : Fin 3) ∉ [(0 : Fin 3)] from by decide), List.not_mem_nil⟩)]
    rfl

/-- An `[a, 1, c]` array with its unit middle axis dropped reads, at `(r, d)`, the operand at `(r, 0, d)`: row-major, both
    sit at `r · c + d`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (d : Fin c) :
    shapeCast ⟨2, ![a, c]⟩ x h (ix2 r d) = x (ix3 r (0 : Fin 1) d) :=
  shapeCast_apply x h _ _ (by
    rw [Shape.rowMajor_val_two, Shape.rowMajor_val_three]
    show (r.val * 1 + 0) * c + d.val = r.val * c + d.val
    rw [Nat.mul_one, Nat.add_zero])

/-- SO THE TWO GATHERS AGREE: rows gathered from the `[N, 1, D]` table, read at `(e, u, k)`, are the rows gathered from the
    table with its unit axis dropped, read at `(e, k)`. -/
theorem gather_rows3_eq_rows {N D E w : Nat} (hN : 0 < N)
    (wf : GatherDims.WF ⟨2, ![N, D]⟩ ⟨2, ![E, 1]⟩ ⟨2, ![E, D]⟩ [1] [0] [] [0] [] 1 ![1, D])
    (wf3 : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (hc : (⟨3, ![N, 1, D]⟩ : Shape).ShapeCasts ⟨2, ![N, D]⟩)
    (idx : IVec ⟨2, ![E, 1]⟩ w) (e : Fin E) (u : Fin 1) (k : Fin D) :
    Host.gather (rowsDims3 N D E wf3) x idx (ix3 e u k)
      = Host.gather (rowsDims N D E wf) (shapeCast ⟨2, ![N, D]⟩ x hc) idx (ix2 e k) := by
  rw [gather_rows3_apply hN, gather_rows_apply hN, shapeCast_a1c_ac_apply]

end Cert.LibRowGather

end
-- ==== Proof.KValue.lean ====
/-
  The idealized kernel's result, entry by entry, is the folded form of the specification.

  Reading the walked arrays at an index: the destination and source words of edge `e` are entries (1, e) and (0, e) of
  the edge-index argument; the degree of node `n` is one per edge received plus one; d is its inverse square root; the
  first kernel's features are d·(x·w1); each message-passing step adds, onto the node an edge is received by, the row
  its (wrapped, clamped) source word selects; the second kernel finishes layer one and contracts with w2; the third
  finishes layer two. That is `Cert.Gcn.kout` at the graph of Proof/Inst.lean.
-/
import proofs.«119362_j87720412054223_2_alg».proof.Proof.KWalk
import proofs.«119362_j87720412054223_2_alg».proof.Proof.Spec
import proofs.«119362_j87720412054223_2_alg».proof.Proof.Inst
import proofs.«119362_j87720412054223_2_alg».proof.Proof.LibScatterRows
import proofs.«119362_j87720412054223_2_alg».proof.Proof.LibRowGather
import proofs.«119362_j87720412054223_2_alg».proof.Proof.LibKeepdimsColumn
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.KWalk
open Idealize.ShloMosaic Idealize.ShloMosaic.TcCoe Idealize.ShloMosaic.ValueIdx Idealize.SL.Sem Idealize.ShloMosaic.StableHlo
open Cert.Gcn Cert.Gcn.Inst

variable (m : (ℓ : Loc nD τ sig) → Buf (Elt Ideal) ℓ) (ρ : Dev nD → PrngReg) (c : Dev nD)

/-- The graph's edge-index array and the features, weights and biases, as the specification takes them. -/
abbrev ei : (⟨2, ![2, 5000000]⟩ : Shape).Idx → BitVec 32 := (m ((c : Thread nD τ).loc main_arg5))
abbrev xf : Fin 500000 → EReal := fun i => ((m ((c : Thread nD τ).loc main_arg0)) : S500000x1.Idx → EReal) (ix2 i (0 : Fin 1))
abbrev w1f : Fin 16 → EReal := fun k => ((m ((c : Thread nD τ).loc main_arg1)) : S1x16.Idx → EReal) (ix2 (0 : Fin 1) k)
abbrev b1f : Fin 16 → EReal := fun k => ((m ((c : Thread nD τ).loc main_arg2)) : S16.Idx → EReal) (ix1 k)
abbrev w2f : Fin 16 → EReal := fun k => ((m ((c : Thread nD τ).loc main_arg3)) : S16x1.Idx → EReal) (ix2 k (0 : Fin 1))
abbrev b2f : EReal := ((m ((c : Thread nD τ).loc main_arg4)) : S1.Idx → EReal) (ix1 (0 : Fin 1))

/-! ## The edge words -/

theorem dst_at (e : Fin 5000000) : dstArr m c (ix1 e) = dstw (ei m c) e := by
  unfold dstArr
  refine (shapeCast_apply _ shapeCasts_S1x5000000_S5000000 (ix1 e) (ix2 (0 : Fin 1) e) (by
    rewrite [Shape.rowMajor_val_two, Shape.rowMajor_val_one]; show 0 * 5000000 + e.val = e.val; omega)).trans ?_
  exact extractStridedSlice_apply ![1, 0] _ slices_S2x5000000_S1x5000000_1_0 (ix2 (0 : Fin 1) e) (ix2 (1 : Fin 2) e) (fun a => match a with
    | ⟨0, _⟩ => by show 1 = 1 + 0; rfl
    | ⟨1, _⟩ => by show e.val = 0 + e.val; omega)

theorem src_at (e : Fin 5000000) : srcArr m c (ix1 e) = srcw (ei m c) e := by
  unfold srcArr
  refine (shapeCast_apply _ shapeCasts_S1x5000000_S5000000 (ix1 e) (ix2 (0 : Fin 1) e) (by
    rewrite [Shape.rowMajor_val_two, Shape.rowMajor_val_one]; show 0 * 5000000 + e.val = e.val; omega)).trans ?_
  exact extractStridedSlice_apply ![0, 0] _ slices_S2x5000000_S1x5000000_0_0 (ix2 (0 : Fin 1) e) (ix2 (0 : Fin 2) e) (fun a => match a with
    | ⟨0, _⟩ => by show 0 = 0 + 0; rfl
    | ⟨1, _⟩ => by show e.val = 0 + e.val; omega)

/-- The destination words survive to every later stretch: the edges a node receives, read off any of them. -/
theorem v3_eq2 : (W2 m ρ c (Proc.devRef .tc main_v3) : S5000000.Idx → BitVec 32) = dstArr m c := (w2_v3 m ρ c).trans (w1_v3 m ρ c)
theorem v3_eq4 : (W4 m ρ c (Proc.devRef .tc main_v3) : S5000000.Idx → BitVec 32) = dstArr m c := (w4_v3 m ρ c).trans ((w3_v3 m ρ c).trans (v3_eq2 m ρ c))
theorem v1_eq2 : (W2 m ρ c (Proc.devRef .tc main_v1) : S5000000.Idx → BitVec 32) = srcArr m c := (w2_v1 m ρ c).trans (w1_v1 m ρ c)
theorem v1_eq4 : (W4 m ρ c (Proc.devRef .tc main_v1) : S5000000.Idx → BitVec 32) = srcArr m c := (w4_v1 m ρ c).trans ((w3_v1 m ρ c).trans (v1_eq2 m ρ c))

/-- The edges whose destination column entry lands on node `n` are the edges node `n` receives. -/
theorem into_eq (n : Fin 500000) :
    Finset.univ.filter (fun e : Fin 5000000 => Cert.LibScatterRows.landing 500000 ((broadcastInDim S5000000x1 ![0] bcast_S5000000_S5000000x1_0 (dstArr m c)) (ix2 e (0 : Fin 1))) = some n)
      = into (hit (ei m c)) n := by
  unfold into
  refine Finset.filter_congr fun e _ => ?_
  show Cert.LibScatterRows.landing 500000 (dstArr m c (ix1 e)) = some n ↔ hit (ei m c) e = some n
  rw [dst_at]
  exact Iff.rfl

/-! ## Reading rules, each over arbitrary arrays (so each is a plain unfolding) -/

theorem bconst_apply {t : Shape} (h : S_.BroadcastsInDim t ![]) (b : BitVec 32) (i : t.Idx) :
    broadcastInDim t ![] h (constant (F := Ideal) S_ .f32 b) i = Ideal.ofBits .f32 b := rfl

theorem col_apply (x : S5000000.Idx → BitVec 32) (e : Fin 5000000) : (broadcastInDim S5000000x1 ![0] bcast_S5000000_S5000000x1_0 x) (ix2 e (0 : Fin 1)) = x (ix1 e) := by
  unfold broadcastInDim
  refine congrArg x (funext fun a => ?_)
  match a with
  | ⟨0, _⟩ => exact Fin.ext rfl

theorem wrap_apply (v : S5000000.Idx → BitVec 32) (e : Fin 5000000) :
    (select (cmpi .slt v (broadcastInDim S5000000 ![] bcast_S_S5000000 (constantI S_ 32 0#32))) (addi v (broadcastInDim S5000000 ![] bcast_S_S5000000 (constantI S_ 32 500000#32))) v) (ix1 e) = wrap (v (ix1 e)) := rfl

theorem flat_rec (x : S500000.Idx → EReal) (idx : S5000000x1.Idx → BitVec 32) (upd : S5000000.Idx → EReal) :
    Host.scatterAdd (F := Ideal) (φ := .f32) scatter_S500000_S5000000x1_S5000000_n_0_0_1 x idx upd
      = Host.scatterAdd (F := Ideal) (φ := .f32) (Cert.LibScatterRows.flatDims 500000 5000000 scatter_S500000_S5000000x1_S5000000_n_0_0_1.wf) x idx upd := rfl

theorem rows16_rec (x : S500000x16.Idx → EReal) (idx : S5000000x1.Idx → BitVec 32) (upd : S5000000x16.Idx → EReal) :
    Host.scatterAdd (F := Ideal) (φ := .f32) scatter_S500000x16_S5000000x1_S5000000x16_1_0_0_1 x idx upd
      = Host.scatterAdd (F := Ideal) (φ := .f32) (Cert.LibScatterRows.rowsDims 500000 16 5000000 scatter_S500000x16_S5000000x1_S5000000x16_1_0_0_1.wf) x idx upd := rfl

theorem rows1_rec (x : S500000x1.Idx → EReal) (idx : S5000000x1.Idx → BitVec 32) (upd : S5000000x1.Idx → EReal) :
    Host.scatterAdd (F := Ideal) (φ := .f32) scatter_S500000x1_S5000000x1_S5000000x1_1_0_0_1 x idx upd
      = Host.scatterAdd (F := Ideal) (φ := .f32) (Cert.LibScatterRows.rowsDims 500000 1 5000000 scatter_S500000x1_S5000000x1_S5000000x1_1_0_0_1.wf) x idx upd := rfl

theorem gather16_rec (x : S500000x16.Idx → EReal) (idx : S5000000x1.Idx → BitVec 32) :
    Host.gather gather_S500000x16_S5000000x1_S5000000x16_1_0_n_n_0_1_116 x idx = Host.gather (Cert.LibRowGather.rowsDims 500000 16 5000000 gather_S500000x16_S5000000x1_S5000000x16_1_0_n_n_0_1_116.wf) x idx := rfl

theorem gather1_rec (x : S500000x1.Idx → EReal) (idx : S5000000x1.Idx → BitVec 32) :
    Host.gather gather_S500000x1_S5000000x1_S5000000x1_1_0_n_n_0_1_11 x idx = Host.gather (Cert.LibRowGather.rowsDims 500000 1 5000000 gather_S500000x1_S5000000x1_S5000000x1_1_0_n_n_0_1_11.wf) x idx := rfl

theorem dinvOf_apply (deg : S500000x1.Idx → EReal) (i : S500000x1.Idx) : KReg0.dinvOf deg i = Ideal.rsqrt (deg i) := rfl

theorem hs1Of_apply (deg x : S500000x1.Idx → EReal) (w : S1x16.Idx → EReal) (n : Fin 500000) (k : Fin 16) :
    KReg0.hs1Of deg x w (ix2 n k)
      = Ideal.rsqrt (deg (ix2 n (0 : Fin 1))) * (x (ix2 n (0 : Fin 1)) * w (ix2 (0 : Fin 1) k)) := rfl

theorem hs2Of_apply (agg hs : S500000x16.Idx → EReal) (d : S500000x1.Idx → EReal) (b w : S1x16.Idx → EReal) (n : Fin 500000) :
    KReg1.hs2Of agg hs d b w (ix2 n (0 : Fin 1))
      = d (ix2 n (0 : Fin 1)) * ∑ k : Fin 16,
          max (d (ix2 n (0 : Fin 1)) * (agg (ix2 n k) + hs (ix2 n k)) + b (ix2 (0 : Fin 1) k))
            (Ideal.ofBits .f32 0x00000000#32) * w (ix2 (0 : Fin 1) k) := rfl

theorem outOf_apply (agg hs d : S500000x1.Idx → EReal) (b : S1x1.Idx → EReal) (n : Fin 500000) :
    KReg2.outOf agg hs d b (ix2 n (0 : Fin 1))
      = d (ix2 n (0 : Fin 1)) * (agg (ix2 n (0 : Fin 1)) + hs (ix2 n (0 : Fin 1))) + b (ix2 (0 : Fin 1) (0 : Fin 1)) := rfl

/-! ## The degree, its inverse square root, and the first kernel's features -/

theorem deg_at (n : Fin 500000) : (W1 m ρ c (Proc.devRef .tc main_v10) : S500000x1.Idx → EReal) (ix2 n (0 : Fin 1)) = kdeg (hit (ei m c)) n := by
  rw [w1_v10]
  refine (Cert.LibKeepdims.shapeCast_a_a1_apply _ _ n (0 : Fin 1)).trans ?_
  rw [addf_apply, bconst_apply, flat_rec]
  unfold kdeg
  refine congrArg (fun z => z + c1) ?_
  refine (Cert.LibScatterRows.scatterAdd_flat_apply _ _ _ _ n).trans ?_
  rw [bconst_apply, into_eq]
  refine congrArg (fun z => c0 + z) (Finset.sum_congr rfl fun e _ => ?_)
  exact bconst_apply _ _ _

theorem dinv_at (n : Fin 500000) : (W2 m ρ c (Proc.devRef .tc main_v11_0) : S500000x1.Idx → EReal) (ix2 n (0 : Fin 1)) = kdinv (hit (ei m c)) n := by
  rw [w2_v11_0, dinvOf_apply, deg_at]
  unfold kdinv
  rfl

theorem hs1_at (n : Fin 500000) (k : Fin 16) :
    (W2 m ρ c (Proc.devRef .tc main_v11_1) : S500000x16.Idx → EReal) (ix2 n k) = khs1 (hit (ei m c)) (xf m c) (w1f m c) n k := by
  rw [w2_v11_1, hs1Of_apply, deg_at, w1_arg0, w1_arg1]
  unfold khs1 kdinv
  rfl

/-! ## Small layout facts -/

theorem row16_at (x : S16.Idx → EReal) (k : Fin 16) : shapeCast S1x16 x shapeCasts_S16_S1x16 (ix2 (0 : Fin 1) k) = x (ix1 k) :=
  shapeCast_apply x shapeCasts_S16_S1x16 (ix2 (0 : Fin 1) k) (ix1 k) (by
    rewrite [Shape.rowMajor_val_one, Shape.rowMajor_val_two]; show k.val = 0 * 16 + k.val; omega)

theorem col16_at (x : S16x1.Idx → EReal) (k : Fin 16) : shapeCast S1x16 x shapeCasts_S16x1_S1x16 (ix2 (0 : Fin 1) k) = x (ix2 k (0 : Fin 1)) :=
  shapeCast_apply x shapeCasts_S16x1_S1x16 (ix2 (0 : Fin 1) k) (ix2 k (0 : Fin 1)) (by
    rewrite [Shape.rowMajor_val_two, Shape.rowMajor_val_two]; show k.val * 1 + 0 = 0 * 16 + k.val; omega)

theorem one_at (x : S1.Idx → EReal) : shapeCast S1x1 x shapeCasts_S1_S1x1 (ix2 (0 : Fin 1) (0 : Fin 1)) = x (ix1 (0 : Fin 1)) :=
  shapeCast_apply x shapeCasts_S1_S1x1 (ix2 (0 : Fin 1) (0 : Fin 1)) (ix1 (0 : Fin 1)) (by
    rewrite [Shape.rowMajor_val_one, Shape.rowMajor_val_two]; rfl)

theorem flat_at (x : S500000x1.Idx → EReal) (n : Fin 500000) :
    shapeCast S500000 x shapeCasts_S500000x1_S500000 (ix1 n) = x (ix2 n (0 : Fin 1)) :=
  shapeCast_apply x shapeCasts_S500000x1_S500000 (ix1 n) (ix2 n (0 : Fin 1)) (by
    rewrite [Shape.rowMajor_val_two, Shape.rowMajor_val_one]; show n.val * 1 + 0 = n.val; omega)

/-- The row an edge's wrapped source word selects in a table of 500000 rows. -/
theorem row_at (e : Fin 5000000) :
    Cert.LibRowGather.rowOf 500000 (by decide) (broadcastInDim S5000000x1 ![0] bcast_S5000000_S5000000x1_0 (select (cmpi .slt (srcArr m c) (broadcastInDim S5000000 ![] bcast_S_S5000000 (constantI S_ 32 0#32))) (addi (srcArr m c) (broadcastInDim S5000000 ![] bcast_S_S5000000 (constantI S_ 32 500000#32))) (srcArr m c))) e = row (ei m c) e := by
  have h : (broadcastInDim S5000000x1 ![0] bcast_S5000000_S5000000x1_0 (select (cmpi .slt (srcArr m c) (broadcastInDim S5000000 ![] bcast_S_S5000000 (constantI S_ 32 0#32))) (addi (srcArr m c) (broadcastInDim S5000000 ![] bcast_S_S5000000 (constantI S_ 32 500000#32))) (srcArr m c))) (ix2 e (0 : Fin 1)) = wrap (srcw (ei m c) e) := by
    rw [col_apply, wrap_apply, src_at]
  show clampRow ((broadcastInDim S5000000x1 ![0] bcast_S5000000_S5000000x1_0 (select (cmpi .slt (srcArr m c) (broadcastInDim S5000000 ![] bcast_S_S5000000 (constantI S_ 32 0#32))) (addi (srcArr m c) (broadcastInDim S5000000 ![] bcast_S_S5000000 (constantI S_ 32 500000#32))) (srcArr m c))) (ix2 e (0 : Fin 1))) = _
  rw [h]
  rfl

/-! ## The first layer's messages, and the second kernel -/

theorem agg1_at (n : Fin 500000) (k : Fin 16) :
    (W3 m ρ c (Proc.devRef .tc main_v21) : S500000x16.Idx → EReal) (ix2 n k) = kagg1 (hit (ei m c)) (row (ei m c)) (xf m c) (w1f m c) n k := by
  rw [w3_v21, v3_eq2, v1_eq2, rows16_rec]
  refine (Cert.LibScatterRows.scatterAdd_rows_apply _ _ _ _ n k).trans ?_
  rw [bconst_apply, into_eq]
  unfold kagg1
  refine congrArg (fun z => c0 + z) (Finset.sum_congr rfl fun e _ => ?_)
  rw [gather16_rec]
  refine (Cert.LibRowGather.gather_rows_apply (by decide) _ _ _ e k).trans ?_
  rw [row_at]
  exact hs1_at m ρ c _ k

theorem hs2_at (n : Fin 500000) :
    (W4 m ρ c (Proc.devRef .tc main_v24) : S500000x1.Idx → EReal) (ix2 n (0 : Fin 1)) = khs2 (hit (ei m c)) (row (ei m c)) (xf m c) (w1f m c) (b1f m c) (w2f m c) n := by
  rw [w4_v24, hs2Of_apply, w3_v11_0, dinv_at]
  unfold khs2 kh2
  refine congrArg (fun z => kdinv (hit (ei m c)) n * z) (Finset.sum_congr rfl fun k _ => ?_)
  rw [agg1_at, w3_v11_1, hs1_at, w3_v22, row16_at, w2_arg2, w1_arg2, w3_v23, col16_at, w2_arg3, w1_arg3]
  unfold kh1
  rfl

/-! ## The second layer's messages, the third kernel, and the result -/

theorem agg2_at (n : Fin 500000) :
    (W5 m ρ c (Proc.devRef .tc main_v34) : S500000x1.Idx → EReal) (ix2 n (0 : Fin 1)) = kagg2 (hit (ei m c)) (row (ei m c)) (xf m c) (w1f m c) (b1f m c) (w2f m c) n := by
  rw [w5_v34, v3_eq4, v1_eq4, rows1_rec]
  refine (Cert.LibScatterRows.scatterAdd_rows_apply _ _ _ _ n (0 : Fin 1)).trans ?_
  rw [bconst_apply, into_eq]
  unfold kagg2
  refine congrArg (fun z => c0 + z) (Finset.sum_congr rfl fun e _ => ?_)
  rw [gather1_rec]
  refine (Cert.LibRowGather.gather_rows_apply (by decide) _ _ _ e (0 : Fin 1)).trans ?_
  rw [row_at]
  exact hs2_at m ρ c _

theorem out_at (n : Fin 500000) :
    (W6 m ρ c (Proc.devRef .tc main_v36) : S500000x1.Idx → EReal) (ix2 n (0 : Fin 1)) = kout (hit (ei m c)) (row (ei m c)) (xf m c) (w1f m c) (b1f m c) (w2f m c) (b2f m c) n := by
  rw [w6_v36, outOf_apply, w5_v11_0, w4_v11_0, w3_v11_0, dinv_at, agg2_at, w5_v24, hs2_at, w5_v35, one_at, w4_arg4, w3_arg4, w2_arg4, w1_arg4]
  unfold kout
  rfl

/-- THE KERNEL'S RESULT at node `n` is the folded form of the specification at the graph of the edge-index argument. -/
theorem result_at (n : Fin 500000) :
    (W7 m ρ c (Proc.devRef .tc main_v37) : S500000.Idx → EReal) (ix1 n) = kout (hit (ei m c)) (row (ei m c)) (xf m c) (w1f m c) (b1f m c) (w2f m c) (b2f m c) n := by
  rw [w7_v37, flat_at]
  exact out_at m ρ c n

end Cert.KernelIdeal.KValue

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.RefEdges.lean ====
/-
  The reference's edge list. The reference appends one self-loop per node to the given edges: its source and
  destination arrays are the edge-index rows followed by the node numbers 0 … 499999, 5500000 words each.

  * A position of the longer list is an edge or a node (`joinIdx`); the source / destination word there is the
    edge's word, resp. the node's own number (`srcF_inl` … `dstF_inr`).
  * So the node that receives position `e` of the longer list, and the rows its two words select, are the
    specification's `hitR`, `rowR`, `rowDR` (`hit_join`, `row_join`, `rowD_join`), and a sum over the positions
    received by a node is a sum over the specification's `intoR` (`sum_landing`).
  * `gather_flat_apply`: a gather of single entries of a flat array at a column of positions, read at an index.
-/
import proofs.«119362_j87720412054223_2_alg».proof.Proof.RefRead
import proofs.«119362_j87720412054223_2_alg».proof.Proof.Spec
import proofs.«119362_j87720412054223_2_alg».proof.Proof.Inst
import proofs.«119362_j87720412054223_2_alg».proof.Proof.LibScatterRows
import proofs.«119362_j87720412054223_2_alg».proof.Proof.LibRowGather
import proofs.«119362_j87720412054223_2_alg».proof.Proof.LibSplitContraction
import Idealize.ShloMosaic.Lib.ValueIdx
import Idealize.ShloMosaic.Lib.Pipeline.Value
import Idealize.ShloMosaic.PureOps.Ideal.Laws

noncomputable section

namespace Cert.Gcn.RefValue

open Cert.ReferenceIdeal Cert.ReferenceIdeal.ReadP Idealize.ShloMosaic Idealize.ShloMosaic.ValueIdx
open Cert.Gcn Cert.LibScatterRows

/-- The edge-index array of 32-bit words. -/
abbrev EI : Type := (⟨S2x5000000, .i32⟩ : BufTy).Contents (Elt Ideal)

/-- A position of the longer list: an edge keeps its number, node `n` sits at `5000000 + n`. -/
def joinIdx : Fin 5000000 ⊕ Fin 500000 ≃ Fin 5500000 := finSumFinEquiv

theorem joinIdx_inl_val (e : Fin 5000000) : (joinIdx (Sum.inl e)).val = e.val := rfl
theorem joinIdx_inr_val (n : Fin 500000) : (joinIdx (Sum.inr n)).val = 5000000 + n.val := rfl

/-- The source word and the destination word at a position of the longer list. -/
def srcF (x5 : EI) (e : Fin 5500000) : BitVec 32 := val_main_v5 (F := Ideal) x5 (ix1 e)
def dstF (x5 : EI) (e : Fin 5500000) : BitVec 32 := val_main_v6 (F := Ideal) x5 (ix1 e)

/-- Row 0 of the edge-index array, flattened, at `e`. -/
theorem v1_at (x5 : EI) (e : Fin 5000000) : val_main_v1 (F := Ideal) x5 (ix1 e) = Inst.srcw x5 e := by
  rw [val_main_v1_apply, val_main_v0_apply]
  refine congrArg x5 (funext fun a => Fin.ext ?_)
  match a with
  | ⟨0, _⟩ => rfl
  | ⟨1, _⟩ => exact Nat.mod_eq_of_lt e.isLt

/-- Row 1 of the edge-index array, flattened, at `e`. -/
theorem v3_at (x5 : EI) (e : Fin 5000000) : val_main_v3 (F := Ideal) x5 (ix1 e) = Inst.dstw x5 e := by
  rw [val_main_v3_apply, val_main_v2_apply]
  refine congrArg x5 (funext fun a => Fin.ext ?_)
  match a with
  | ⟨0, _⟩ => rfl
  | ⟨1, _⟩ => exact Nat.mod_eq_of_lt e.isLt

theorem srcF_inl (x5 : EI) (e : Fin 5000000) : srcF x5 (joinIdx (Sum.inl e)) = Inst.srcw x5 e := by
  unfold srcF val_main_v5
  refine (concatenate_pair_apply_left (t := S5500000) (s₁ := S5000000) (s₂ := S500000) (0 : Fin S5500000.rank) _ _ _ (ix1 (joinIdx (Sum.inl e))) rfl (ix1 e)
    (fun b => match b with | ⟨0, _⟩ => rfl)).trans ?_
  exact v1_at x5 e

theorem dstF_inl (x5 : EI) (e : Fin 5000000) : dstF x5 (joinIdx (Sum.inl e)) = Inst.dstw x5 e := by
  unfold dstF val_main_v6
  refine (concatenate_pair_apply_left (t := S5500000) (s₁ := S5000000) (s₂ := S500000) (0 : Fin S5500000.rank) _ _ _ (ix1 (joinIdx (Sum.inl e))) rfl (ix1 e)
    (fun b => match b with | ⟨0, _⟩ => rfl)).trans ?_
  exact v3_at x5 e

theorem srcF_inr (x5 : EI) (n : Fin 500000) : srcF x5 (joinIdx (Sum.inr n)) = BitVec.ofNat 32 n.val := by
  unfold srcF val_main_v5
  refine (concatenate_pair_apply_right (t := S5500000) (s₁ := S5000000) (s₂ := S500000) (0 : Fin S5500000.rank) _ _ _ (ix1 (joinIdx (Sum.inr n))) rfl rfl (ix1 n)
    (fun b => match b with | ⟨0, _⟩ => fun hb => absurd rfl hb)
    (by show n.val + 5000000 = 5000000 + n.val; omega)).trans ?_
  rfl

theorem dstF_inr (x5 : EI) (n : Fin 500000) : dstF x5 (joinIdx (Sum.inr n)) = BitVec.ofNat 32 n.val := by
  unfold dstF val_main_v6
  refine (concatenate_pair_apply_right (t := S5500000) (s₁ := S5000000) (s₂ := S500000) (0 : Fin S5500000.rank) _ _ _ (ix1 (joinIdx (Sum.inr n))) rfl rfl (ix1 n)
    (fun b => match b with | ⟨0, _⟩ => fun hb => absurd rfl hb)
    (by show n.val + 5000000 = 5000000 + n.val; omega)).trans ?_
  rfl

/-- The node that receives a position of the longer list is the specification's. -/
theorem hit_join (x5 : EI) (e : Fin 5000000 ⊕ Fin 500000) :
    landing 500000 (dstF x5 (joinIdx e)) = hitR (Inst.hit x5) e := by
  match e with
  | .inl e => rw [dstF_inl]; rfl
  | .inr n => rw [dstF_inr]; exact Inst.landing_ofNat n

/-- The row a position's source word selects is the specification's. -/
theorem row_join (x5 : EI) (e : Fin 5000000 ⊕ Fin 500000) :
    Inst.clampRow (Inst.wrap (srcF x5 (joinIdx e))) = rowR (Inst.row x5) e := by
  match e with
  | .inl e => rw [srcF_inl]; rfl
  | .inr n => rw [srcF_inr]; exact Inst.clampRow_wrap_ofNat n

/-- The row a position's destination word selects is the specification's. -/
theorem rowD_join (x5 : EI) (e : Fin 5000000 ⊕ Fin 500000) :
    Inst.clampRow (Inst.wrap (dstF x5 (joinIdx e))) = rowDR (Inst.rowD x5) e := by
  match e with
  | .inl e => rw [dstF_inl]; rfl
  | .inr n => rw [dstF_inr]; exact Inst.clampRow_wrap_ofNat n

/-- A sum over the positions of the longer list that node `i` receives is a sum over the specification's
    received edges of the longer list. -/
theorem sum_landing (x5 : EI) (i : Fin 500000) (f : Fin 5500000 → EReal) :
    ∑ e ∈ Finset.univ.filter (fun e : Fin 5500000 => landing 500000 (dstF x5 e) = some i), f e
      = ∑ e ∈ intoR (Inst.hit x5) i, f (joinIdx e) := by
  refine (Finset.sum_equiv joinIdx (fun e => ?_) (fun _ _ => rfl)).symm
  unfold intoR
  rw [Finset.mem_filter, Finset.mem_filter, hit_join]
  exact ⟨fun h => ⟨Finset.mem_univ _, h.2⟩, fun h => ⟨Finset.mem_univ _, h.2⟩⟩

/-! ## A gather of single entries of a flat array -/

section FlatGather
variable {α : Type}

/-- The dimension numbers of a gather of single entries of a flat `[N]` array at a column `[E, 1]` of positions. -/
abbrev flatGDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the array at the start index `idx[e, 0]`, read signed and clamped into the array. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGDims N E wf) x idx (ix1 e) = x (ix1 (Cert.LibRowGather.rowOf N hN idx e)) := by
  unfold Host.gather
  refine congrArg x ?_
  funext a
  refine Fin.ext ?_
  match a with
  | ⟨0, _⟩ =>
    show (flatGDims N E wf).start (ix1 e) idx 0 + (flatGDims N E wf).batchCoord (ix1 e) 0
      + (flatGDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatGDims N E wf).startIndexMap from List.mem_singleton.mpr rfl)]
    have hsi : (flatGDims N E wf).siIdx (ix1 e) ⟨List.idxOf (0 : Fin 1) (flatGDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end FlatGather

end Cert.Gcn.RefValue

end
-- ==== Proof.RefStages.lean ====
/-
  The reference program stage by stage: each stage read at an explicit index, in the specification's terms.

  Positions `e` run over the longer edge list (5500000 words). The four index columns handed to the gathers are
  the source / destination words with a negative word wrapped (`v22_at` … `v56_at`); the three columns handed to
  the accumulations are the destination words as they are (`v9_at`, `v44_at`, `v61_at`). Then:
  degree (`deg_at`), guarded inverse square root (`dinv_at`), edge weight (`v31_at`, `norm_join`), the first
  layer (`v32_at` … `v50_at`) and the second (`v57_at` … `v65_at`).
-/
import proofs.«119362_j87720412054223_2_alg».proof.Proof.RefEdges

noncomputable section

namespace Cert.Gcn.RefValue

open Cert.ReferenceIdeal Cert.ReferenceIdeal.ReadP Idealize.ShloMosaic Idealize.ShloMosaic.ValueIdx
open Cert.Gcn Cert.LibScatterRows Cert.LibRowGather

abbrev X0 : Type := (⟨S500000x1, .f32⟩ : BufTy).Contents (Elt Ideal)
abbrev X1 : Type := (⟨S1x16, .f32⟩ : BufTy).Contents (Elt Ideal)
abbrev X2 : Type := (⟨S16, .f32⟩ : BufTy).Contents (Elt Ideal)
abbrev X3 : Type := (⟨S16x1, .f32⟩ : BufTy).Contents (Elt Ideal)
abbrev X4 : Type := (⟨S1, .f32⟩ : BufTy).Contents (Elt Ideal)

/-- The specification's arguments, read off the program's: node features, the two weight vectors, the first bias. -/
abbrev fx (x0 : X0) : Fin 500000 → EReal := fun i => x0 (ix2 i (0 : Fin 1))
abbrev fw1 (x1 : X1) : Fin 16 → EReal := fun c => x1 (ix2 (0 : Fin 1) c)
abbrev fb1 (x2 : X2) : Fin 16 → EReal := fun c => x2 (ix1 c)
abbrev fw2 (x3 : X3) : Fin 16 → EReal := fun c => x3 (ix2 c (0 : Fin 1))

/-- The row a position's source word, resp. destination word, selects in a table of 500000 rows. -/
abbrev rowF (x5 : EI) (e : Fin 5500000) : Fin 500000 := Inst.clampRow (Inst.wrap (srcF x5 e))
abbrev rowDF (x5 : EI) (e : Fin 5500000) : Fin 500000 := Inst.clampRow (Inst.wrap (dstF x5 e))

/-! ## The index columns -/

theorem v9_at (x5 : EI) (e : Fin 5500000) : val_main_v9 (F := Ideal) x5 (ix2 e (0 : Fin 1)) = dstF x5 e := by
  have hi : idx_main_v9 (ix2 e (0 : Fin 1)) = ix1 e := funext fun a => match a with | ⟨0, _⟩ => rfl
  rw [val_main_v9_apply, hi]; rfl
theorem v44_at (x5 : EI) (e : Fin 5500000) : val_main_v44 (F := Ideal) x5 (ix2 e (0 : Fin 1)) = dstF x5 e := by
  have hi : idx_main_v44 (ix2 e (0 : Fin 1)) = ix1 e := funext fun a => match a with | ⟨0, _⟩ => rfl
  rw [val_main_v44_apply, hi]; rfl
theorem v61_at (x5 : EI) (e : Fin 5500000) : val_main_v61 (F := Ideal) x5 (ix2 e (0 : Fin 1)) = dstF x5 e := by
  have hi : idx_main_v61 (ix2 e (0 : Fin 1)) = ix1 e := funext fun a => match a with | ⟨0, _⟩ => rfl
  rw [val_main_v61_apply, hi]; rfl

theorem v22_at (x5 : EI) (e : Fin 5500000) :
    val_main_v22 (F := Ideal) x5 (ix2 e (0 : Fin 1)) = Inst.wrap (srcF x5 e) := by
  have hi : idx_main_v22 (ix2 e (0 : Fin 1)) = ix1 e := funext fun a => match a with | ⟨0, _⟩ => rfl
  rw [val_main_v22_apply, hi, val_main_v21_apply, val_main_v18_apply, val_main_v20_apply, val_main_v17_apply, val_main_v19_apply, val_main_c_apply, val_main_c_4_apply]
  rfl

theorem v29_at (x5 : EI) (e : Fin 5500000) :
    val_main_v29 (F := Ideal) x5 (ix2 e (0 : Fin 1)) = Inst.wrap (dstF x5 e) := by
  have hi : idx_main_v29 (ix2 e (0 : Fin 1)) = ix1 e := funext fun a => match a with | ⟨0, _⟩ => rfl
  rw [val_main_v29_apply, hi, val_main_v28_apply, val_main_v25_apply, val_main_v27_apply, val_main_v24_apply, val_main_v26_apply, val_main_c_5_apply, val_main_c_6_apply]
  rfl

theorem v38_at (x5 : EI) (e : Fin 5500000) :
    val_main_v38 (F := Ideal) x5 (ix2 e (0 : Fin 1)) = Inst.wrap (srcF x5 e) := by
  have hi : idx_main_v38 (ix2 e (0 : Fin 1)) = ix1 e := funext fun a => match a with | ⟨0, _⟩ => rfl
  rw [val_main_v38_apply, hi, val_main_v37_apply, val_main_v34_apply, val_main_v36_apply, val_main_v33_apply, val_main_v35_apply, val_main_c_7_apply, val_main_c_8_apply]
  rfl

theorem v56_at (x5 : EI) (e : Fin 5500000) :
    val_main_v56 (F := Ideal) x5 (ix2 e (0 : Fin 1)) = Inst.wrap (srcF x5 e) := by
  have hi : idx_main_v56 (ix2 e (0 : Fin 1)) = ix1 e := funext fun a => match a with | ⟨0, _⟩ => rfl
  rw [val_main_v56_apply, hi, val_main_v55_apply, val_main_v52_apply, val_main_v54_apply, val_main_v51_apply, val_main_v53_apply, val_main_c_10_apply, val_main_c_11_apply]
  rfl

/-! ## Degree and its guarded inverse square root -/

/-- The degree: one per received position of the longer list, accumulated from zero. -/
theorem deg_at (x5 : EI) (i : Fin 500000) : val_main_v10 (F := Ideal) x5 (ix1 i) = rdeg (Inst.hit x5) i := by
  unfold val_main_v10
  refine (scatterAdd_flat_apply (n := 500000) (m := 5500000)
    Facts₀.scatter_S500000_S5500000x1_S5500000_n_0_0_1_wf _ _ _ i).trans ?_
  rw [val_main_v8_apply, val_main_cst_0_apply]
  simp only [v9_at, val_main_v7_apply, val_main_cst_apply]
  exact congrArg (c0 + ·) (sum_landing x5 i fun _ => c1)

/-- A selection on "`a` exceeds `b`" over the extended reals. -/
theorem select_ogt (a b u v : EReal) :
    Scalar.select (FloatOps.cmpf (F := Ideal) (φ := .f32) .ogt a b) u v = if b < a then u else v := by
  show Scalar.select (Ideal.cmp .ogt a b) u v = _
  unfold Scalar.select Ideal.cmp
  by_cases h : b < a
  · simp [h]
  · simp [h]

theorem dinv_at (x5 : EI) (i : Fin 500000) : val_main_v16 (F := Ideal) x5 (ix1 i) = rdinv (Inst.hit x5) i := by
  rw [val_main_v16_apply, val_main_v12_apply, val_main_v15_apply, val_main_v14_apply, deg_at,
    val_main_v11_apply, val_main_cst_1_apply, val_main_v13_apply, val_main_cst_2_apply,
    val_main_call0_v1_apply, val_main_call0_v0_apply, val_main_cst_3_apply, select_ogt]
  unfold rdinv
  simp only [Ideal.ofBits_def, Ideal.hostUnary_rsqrt_def, Ideal.maximumf_def]

/-! ## The edge weight -/

theorem v23_at (x5 : EI) (e : Fin 5500000) :
    val_main_v23 (F := Ideal) x5 (ix1 e) = rdinv (Inst.hit x5) (rowF x5 e) := by
  unfold val_main_v23
  refine (gather_flat_apply (N := 500000) (E := 5500000) (by norm_num)
    Facts₀.gather_S500000_S5500000x1_S5500000_n_0_n_n_0_1_1_wf _ _ e).trans ?_
  have hr : rowOf 500000 (by norm_num) (val_main_v22 (F := Ideal) x5) e = rowF x5 e := by
    show Inst.clampRow (val_main_v22 (F := Ideal) x5 (ix2 e (0 : Fin 1))) = _
    rw [v22_at]
  rw [hr]
  exact dinv_at x5 _

theorem v30_at (x5 : EI) (e : Fin 5500000) :
    val_main_v30 (F := Ideal) x5 (ix1 e) = rdinv (Inst.hit x5) (rowDF x5 e) := by
  unfold val_main_v30
  refine (gather_flat_apply (N := 500000) (E := 5500000) (by norm_num)
    Facts₀.gather_S500000_S5500000x1_S5500000_n_0_n_n_0_1_1_wf _ _ e).trans ?_
  have hr : rowOf 500000 (by norm_num) (val_main_v29 (F := Ideal) x5) e = rowDF x5 e := by
    show Inst.clampRow (val_main_v29 (F := Ideal) x5 (ix2 e (0 : Fin 1))) = _
    rw [v29_at]
  rw [hr]
  exact dinv_at x5 _

theorem v31_at (x5 : EI) (e : Fin 5500000) :
    val_main_v31 (F := Ideal) x5 (ix1 e) = rdinv (Inst.hit x5) (rowF x5 e) * rdinv (Inst.hit x5) (rowDF x5 e) := by
  rw [val_main_v31_apply, v23_at, v30_at]; rfl

/-- At a position of the longer list, the weight is the specification's. -/
theorem norm_join (x5 : EI) (e : Fin 5000000 ⊕ Fin 500000) :
    val_main_v31 (F := Ideal) x5 (ix1 (joinIdx e)) = rnorm (Inst.hit x5) (Inst.row x5) (Inst.rowD x5) e := by
  rw [v31_at]
  show rdinv _ (Inst.clampRow (Inst.wrap (srcF x5 (joinIdx e)))) * rdinv _ (Inst.clampRow (Inst.wrap (dstF x5 (joinIdx e)))) = _
  rw [row_join, rowD_join]; rfl

end Cert.Gcn.RefValue

end
-- ==== Proof.RefLayers.lean ====
/-
  The reference's two graph-convolution layers, read at an explicit index in the specification's terms.

  Layer 1: the feature product `x·w1` (a contraction over an axis of one element), its rows gathered along the
  longer edge list and scaled by the edge weight (`v42_at`), accumulated per receiving node (`v45_at`), plus the
  bias, rectified (`v49_at`), contracted with `w2` (`v50_at`). Layer 2 the same on one column (`v59_at`,
  `v62_at`), plus the bias (`v65_at`).
-/
import proofs.«119362_j87720412054223_2_alg».proof.Proof.RefStages

noncomputable section

namespace Cert.Gcn.RefValue

open Cert.ReferenceIdeal Cert.ReferenceIdeal.ReadP Idealize.ShloMosaic Idealize.ShloMosaic.ValueIdx
open Cert.Gcn Cert.LibScatterRows Cert.LibRowGather

/-! ## Layer 1 -/

/-- A contraction over an axis of one element is the one product. -/
theorem v32_at (x0 : X0) (x1 : X1) (r : Fin 500000) (c : Fin 16) :
    val_main_v32 (F := Ideal) x0 x1 (ix2 r c) = fx x0 r * fw1 x1 c := by
  have hl : lidx_main_v32 (ix2 r c) (0 : Fin 1) = ix2 r (0 : Fin 1) :=
    funext fun a => match a with | ⟨0, _⟩ => rfl | ⟨1, _⟩ => rfl
  have hr : ridx_main_v32 (ix2 r c) (0 : Fin 1) = ix2 (0 : Fin 1) c :=
    funext fun a => match a with | ⟨0, _⟩ => rfl | ⟨1, _⟩ => rfl
  rw [val_main_v32_apply, Fin.sum_univ_one, hl, hr]

theorem v39_at (x0 : X0) (x1 : X1) (x5 : EI) (e : Fin 5500000) (c : Fin 16) :
    val_main_v39 (F := Ideal) x0 x1 x5 (ix2 e c) = fx x0 (rowF x5 e) * fw1 x1 c := by
  unfold val_main_v39
  refine (gather_rows_apply (N := 500000) (D := 16) (E := 5500000) (by norm_num)
    Facts₀.gather_S500000x16_S5500000x1_S5500000x16_1_0_n_n_0_1_116_wf _ _ e c).trans ?_
  have hr : rowOf 500000 (by norm_num) (val_main_v38 (F := Ideal) x5) e = rowF x5 e := by
    show Inst.clampRow (val_main_v38 (F := Ideal) x5 (ix2 e (0 : Fin 1))) = _
    rw [v38_at]
  rw [hr]
  exact v32_at x0 x1 _ c

/-- The edge weight, spread along the feature axis. -/
theorem v41_at (x5 : EI) (e : Fin 5500000) (c : Fin 16) :
    val_main_v41 (F := Ideal) x5 (ix2 e c) = val_main_v31 (F := Ideal) x5 (ix1 e) := by
  have hi : idx_main_v40 (idx_main_v41 (ix2 e c)) = ix1 e := funext fun a => match a with | ⟨0, _⟩ => rfl
  rw [val_main_v41_apply, val_main_v40_apply, hi]

theorem v42_at (x0 : X0) (x1 : X1) (x5 : EI) (e : Fin 5500000) (c : Fin 16) :
    val_main_v42 (F := Ideal) x0 x1 x5 (ix2 e c)
      = (fx x0 (rowF x5 e) * fw1 x1 c) * val_main_v31 (F := Ideal) x5 (ix1 e) := by
  rw [val_main_v42_apply, v39_at, v41_at]; rfl

theorem v45_at (x0 : X0) (x1 : X1) (x5 : EI) (i : Fin 500000) (c : Fin 16) :
    val_main_v45 (F := Ideal) x0 x1 x5 (ix2 i c)
      = ragg1 (Inst.hit x5) (Inst.row x5) (Inst.rowD x5) (fx x0) (fw1 x1) i c := by
  unfold val_main_v45
  refine (scatterAdd_rows_apply (n := 500000) (k := 16) (m := 5500000)
    Facts₀.scatter_S500000x16_S5500000x1_S5500000x16_1_0_0_1_wf _ _ _ i c).trans ?_
  rw [val_main_v43_apply, val_main_cst_9_apply]
  simp only [v44_at]
  refine (congrArg (c0 + ·) (sum_landing x5 i fun e => val_main_v42 (F := Ideal) x0 x1 x5 (ix2 e c))).trans ?_
  unfold ragg1
  refine congrArg (c0 + ·) (Finset.sum_congr rfl fun e _ => ?_)
  rw [v42_at, norm_join]
  show (fx x0 (Inst.clampRow (Inst.wrap (srcF x5 (joinIdx e)))) * fw1 x1 c) * _ = _
  rw [row_join]

theorem v47_at (x2 : X2) (i : Fin 500000) (c : Fin 16) : val_main_v47 (F := Ideal) x2 (ix2 i c) = fb1 x2 c := by
  have hi : idx_main_v46 (idx_main_v47 (ix2 i c)) = ix1 c := funext fun a => match a with | ⟨0, _⟩ => rfl
  rw [val_main_v47_apply, val_main_v46_apply, hi]

theorem v49_at (x0 : X0) (x1 : X1) (x2 : X2) (x5 : EI) (i : Fin 500000) (c : Fin 16) :
    val_main_v49 (F := Ideal) x0 x1 x2 x5 (ix2 i c)
      = rh1 (Inst.hit x5) (Inst.row x5) (Inst.rowD x5) (fx x0) (fw1 x1) (fb1 x2) i c := by
  rw [val_main_v49_apply, val_main_v48_apply, v45_at, v47_at, val_main_call1_v0_apply, val_main_call1_cst_apply]
  rfl

theorem v50_at (x0 : X0) (x1 : X1) (x2 : X2) (x3 : X3) (x5 : EI) (i : Fin 500000) :
    val_main_v50 (F := Ideal) x0 x1 x2 x3 x5 (ix2 i (0 : Fin 1))
      = rhw (Inst.hit x5) (Inst.row x5) (Inst.rowD x5) (fx x0) (fw1 x1) (fb1 x2) (fw2 x3) i := by
  rw [val_main_v50_apply]
  unfold rhw
  refine Finset.sum_congr rfl fun k _ => ?_
  have hl : lidx_main_v50 (ix2 i (0 : Fin 1)) k = ix2 i k :=
    funext fun a => match a with | ⟨0, _⟩ => rfl | ⟨1, _⟩ => rfl
  have hr : ridx_main_v50 (ix2 i (0 : Fin 1)) k = ix2 k (0 : Fin 1) :=
    funext fun a => match a with | ⟨0, _⟩ => rfl | ⟨1, _⟩ => rfl
  rw [hl, hr, v49_at]

/-! ## Layer 2 -/

theorem v57_at (x0 : X0) (x1 : X1) (x2 : X2) (x3 : X3) (x5 : EI) (e : Fin 5500000) :
    val_main_v57 (F := Ideal) x0 x1 x2 x3 x5 (ix2 e (0 : Fin 1))
      = rhw (Inst.hit x5) (Inst.row x5) (Inst.rowD x5) (fx x0) (fw1 x1) (fb1 x2) (fw2 x3) (rowF x5 e) := by
  unfold val_main_v57
  refine (gather_rows_apply (N := 500000) (D := 1) (E := 5500000) (by norm_num)
    Facts₀.gather_S500000x1_S5500000x1_S5500000x1_1_0_n_n_0_1_11_wf _ _ e (0 : Fin 1)).trans ?_
  have hr : rowOf 500000 (by norm_num) (val_main_v56 (F := Ideal) x5) e = rowF x5 e := by
    show Inst.clampRow (val_main_v56 (F := Ideal) x5 (ix2 e (0 : Fin 1))) = _
    rw [v56_at]
  rw [hr]
  exact v50_at x0 x1 x2 x3 x5 _

theorem v58_at (x5 : EI) (e : Fin 5500000) :
    val_main_v58 (F := Ideal) x5 (ix2 e (0 : Fin 1)) = val_main_v31 (F := Ideal) x5 (ix1 e) := by
  have hi : idx_main_v58 (ix2 e (0 : Fin 1)) = ix1 e := funext fun a => match a with | ⟨0, _⟩ => rfl
  rw [val_main_v58_apply, hi]

theorem v59_at (x0 : X0) (x1 : X1) (x2 : X2) (x3 : X3) (x5 : EI) (e : Fin 5500000) :
    val_main_v59 (F := Ideal) x0 x1 x2 x3 x5 (ix2 e (0 : Fin 1))
      = rhw (Inst.hit x5) (Inst.row x5) (Inst.rowD x5) (fx x0) (fw1 x1) (fb1 x2) (fw2 x3) (rowF x5 e)
        * val_main_v31 (F := Ideal) x5 (ix1 e) := by
  rw [val_main_v59_apply, v57_at, v58_at]; rfl

theorem v62_at (x0 : X0) (x1 : X1) (x2 : X2) (x3 : X3) (x5 : EI) (i : Fin 500000) :
    val_main_v62 (F := Ideal) x0 x1 x2 x3 x5 (ix2 i (0 : Fin 1))
      = ragg2 (Inst.hit x5) (Inst.row x5) (Inst.rowD x5) (fx x0) (fw1 x1) (fb1 x2) (fw2 x3) i := by
  unfold val_main_v62
  refine (scatterAdd_rows_apply (n := 500000) (k := 1) (m := 5500000)
    Facts₀.scatter_S500000x1_S5500000x1_S5500000x1_1_0_0_1_wf _ _ _ i (0 : Fin 1)).trans ?_
  rw [val_main_v60_apply, val_main_cst_12_apply]
  simp only [v61_at]
  refine (congrArg (c0 + ·) (sum_landing x5 i
    fun e => val_main_v59 (F := Ideal) x0 x1 x2 x3 x5 (ix2 e (0 : Fin 1)))).trans ?_
  unfold ragg2
  refine congrArg (c0 + ·) (Finset.sum_congr rfl fun e _ => ?_)
  rw [v59_at, norm_join]
  show rhw _ _ _ _ _ _ _ (Inst.clampRow (Inst.wrap (srcF x5 (joinIdx e)))) * _ = _
  rw [row_join]

theorem v64_at (x4 : X4) (i : Fin 500000) :
    val_main_v64 (F := Ideal) x4 (ix2 i (0 : Fin 1)) = x4 (ix1 (0 : Fin 1)) := by
  have hi : idx_main_v63 (idx_main_v64 (ix2 i (0 : Fin 1))) = ix1 (0 : Fin 1) :=
    funext fun a => match a with | ⟨0, _⟩ => rfl
  rw [val_main_v64_apply, val_main_v63_apply, hi]

theorem v65_at (x0 : X0) (x1 : X1) (x2 : X2) (x3 : X3) (x4 : X4) (x5 : EI) (i : Fin 500000) :
    val_main_v65 (F := Ideal) x0 x1 x2 x3 x4 x5 (ix2 i (0 : Fin 1))
      = rout (Inst.hit x5) (Inst.row x5) (Inst.rowD x5) (fx x0) (fw1 x1) (fb1 x2) (fw2 x3) (x4 (ix1 (0 : Fin 1))) i := by
  rw [val_main_v65_apply, v62_at, v64_at]; rfl

end Cert.Gcn.RefValue

end
-- ==== Proof.RefValue.lean ====
/-
  The reference program's result, read at a node, is the edge-list form of the specification: a two-layer graph
  convolution over the given edges followed by one self-loop per node, every edge weighted by the product of the
  guarded inverse square roots of its two end nodes' degrees.
-/
import proofs.«119362_j87720412054223_2_alg».proof.Proof.RefLayers

noncomputable section

namespace Cert.Gcn.RefValue

open Cert.ReferenceIdeal Cert.ReferenceIdeal.ReadP Idealize.ShloMosaic Idealize.ShloMosaic.ValueIdx
open Cert.Gcn

theorem ref_value (x0 : (⟨S500000x1, .f32⟩ : BufTy).Contents (Elt Ideal)) (x1 : (⟨S1x16, .f32⟩ : BufTy).Contents (Elt Ideal))
    (x2 : (⟨S16, .f32⟩ : BufTy).Contents (Elt Ideal)) (x3 : (⟨S16x1, .f32⟩ : BufTy).Contents (Elt Ideal))
    (x4 : (⟨S1, .f32⟩ : BufTy).Contents (Elt Ideal)) (x5 : (⟨S2x5000000, .i32⟩ : BufTy).Contents (Elt Ideal))
    (n : Fin 500000) :
    Cert.ReferenceIdeal.ReadP.val_main_v66 (F := Ideal) x0 x1 x2 x3 x4 x5 (ix1 n)
      = Cert.Gcn.rout (Cert.Gcn.Inst.hit x5) (Cert.Gcn.Inst.row x5) (Cert.Gcn.Inst.rowD x5)
          (fun i : Fin 500000 => x0 (ix2 i (0 : Fin 1))) (fun c : Fin 16 => x1 (ix2 (0 : Fin 1) c))
          (fun c : Fin 16 => x2 (ix1 c)) (fun c : Fin 16 => x3 (ix2 c (0 : Fin 1))) (x4 (ix1 (0 : Fin 1))) n := by
  have hi : idx_main_v66 (ix1 n) = ix2 n (0 : Fin 1) :=
    funext fun a => Fin.ext (match a with | ⟨0, _⟩ => Nat.div_one _ | ⟨1, _⟩ => rfl)
  rw [val_main_v66_apply, hi]
  exact v65_at x0 x1 x2 x3 x4 x5 n

end Cert.Gcn.RefValue

end
-- ==== Proof.LibScatterAddReal.lean ====
/-
  Finiteness through an accumulating scatter, over the extended reals.

  At the exact (extended-real) reading, an accumulating float scatter returns, at every index, the operand's
  element plus the finite sum of the update elements that land there. A finite sum of real numbers is a real
  number, so when every operand element and every update element is real, so is every result element.
-/
import Idealize.ShloMosaic.PureOps.Ideal

namespace Cert.LibScatterAddReal

open Idealize.ShloMosaic

/-- The sum of two real numbers, taken in the extended reals, is a real number. -/
theorem add_real {a b : EReal} (ha : ∃ r : ℝ, a = (r : EReal)) (hb : ∃ r : ℝ, b = (r : EReal)) :
    ∃ r : ℝ, a + b = (r : EReal) := by
  obtain ⟨r, rfl⟩ := ha
  obtain ⟨q, rfl⟩ := hb
  exact ⟨r + q, (EReal.coe_add r q).symm⟩

/-- A finite sum of real numbers, taken in the extended reals, is a real number. -/
theorem sum_real {ι : Type*} (s : Finset ι) (f : ι → EReal) (hf : ∀ j, ∃ r : ℝ, f j = (r : EReal)) :
    ∃ r : ℝ, ∑ j ∈ s, f j = (r : EReal) := by
  classical
  induction s using Finset.induction_on with
  | empty => exact ⟨0, by rw [Finset.sum_empty, EReal.coe_zero]⟩
  | insert a s ha ih =>
    rw [Finset.sum_insert ha]
    exact add_real (hf a) ih

/-- An accumulating scatter of real updates into a real operand is real at every index. -/
theorem scatterAdd_real {s si su : Shape} (d : ScatterDims s si su) {w : Nat} {φ : FTy}
    (x : FVec Ideal s φ) (idx : IVec si w) (upd : FVec Ideal su φ)
    (hx : ∀ i, ∃ r : ℝ, x i = (r : EReal)) (hu : ∀ j, ∃ r : ℝ, upd j = (r : EReal)) :
    ∀ i, ∃ r : ℝ, Host.scatterAdd d x idx upd i = (r : EReal) := by
  intro i
  unfold Host.scatterAdd
  rw [Ideal.hostScatterAdd_def]
  unfold Ideal.hostScatterAdd
  exact add_real (hx i) (sum_real _ _ hu)

end Cert.LibScatterAddReal
-- ==== Proof.LibScaleAcrossSum.lean ====
/-
  Moving a real factor across a finite sum in the extended reals.

  In the extended reals multiplication does not distribute over addition in general: with a = 1, b = −1 and
  s = +∞,  (a + b) · s = 0 · ⊤ = 0  but  a · s + b · s = ⊤ + ⊥ = ⊥. When every summand and the factor are real
  numbers nothing of the kind happens: both sides are the coercion of a real sum. Two lemmas:

  * `coe_sum` — the coercion ℝ → EReal commutes with a finite sum;
  * `sum_mul_scale` — for real xₖ (given as extended reals that are real), real wₖ and a real s,
        (∑ₖ xₖ · wₖ) · s = ∑ₖ xₖ · (wₖ · s):
    scaling a finished contraction is contracting against scaled weights.
-/
import Idealize.ShloMosaic.PureOps.Ideal

namespace Cert.Lib.ScaleAcrossSum

/-- The coercion of the reals into the extended reals commutes with finite sums. -/
theorem coe_sum {ι : Type*} (t : Finset ι) (f : ι → ℝ) :
    (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- Scaling a finished contraction is contracting against scaled weights, when the activations and the scale
    are real: both sides are the coercion of ∑ₖ xₖ · wₖ · s. -/
theorem sum_mul_scale {ι : Type*} [Fintype ι] (x : ι → EReal) (w : ι → ℝ) (s : EReal)
    (hx : ∀ k, ∃ r : ℝ, x k = (r : EReal)) (hs : ∃ r : ℝ, s = (r : EReal)) :
    (∑ k, x k * ((w k : ℝ) : EReal)) * s = ∑ k, x k * (((w k : ℝ) : EReal) * s) := by
  obtain ⟨s', rfl⟩ := hs
  choose x' hx' using hx
  simp only [hx', ← EReal.coe_mul, coe_sum]
  congr 1
  rw [Finset.sum_mul]
  exact Finset.sum_congr rfl fun k _ => by ring

end Cert.Lib.ScaleAcrossSum
-- ==== Proof.GcnAlgebra.lean ====
/-
  A two-layer graph convolution with symmetric degree normalisation: the folded form and the edge-list form of
  Proof/Spec.lean agree when every input is a real number.

  Why. Write n(i) for the number of edges node i receives. Both forms compute the degree n(i) + 1 (the edge-list form
  counts the self-loop among its edges, the folded form adds it afterwards), a real number ≥ 1. So the edge-list form's
  guard "degree > 0" holds, its clamp "max degree 1" is idle, and both forms use the same d(i) = (√(n(i)+1))⁻¹, a
  real number. A layer of the folded form is
        d(i) · ( Σ_{e received by i} d(row e) · g(row e)  +  d(i) · g(i) ),
  a layer of the edge-list form is
        Σ_{e received by i} g(row e) · (d(row e) · d(dst e))  +  g(i) · (d(i) · d(i)),
  and dst e = i for a received edge. The two are equal by distributing d(i) over the finite sum. On the extended
  reals multiplication does NOT distribute over addition at the infinities, so the step is made on real numbers:
  every factor is first shown to be (the coercion of) a real, the coercion is pushed outwards through products
  and finite sums, and the identity is closed in ℝ. Realness is propagated layer by layer: products, sums, finite
  sums and maxima of reals are real.
-/
import proofs.«119362_j87720412054223_2_alg».proof.Proof.Spec
import proofs.«119362_j87720412054223_2_alg».proof.Proof.LibScatterAddReal
import proofs.«119362_j87720412054223_2_alg».proof.Proof.LibScaleAcrossSum
import Idealize.ShloMosaic.Lib.IdealHost

noncomputable section

namespace Cert.Gcn

open Idealize.ShloMosaic
open Cert.LibScatterAddReal (add_real sum_real)
open Cert.Lib.ScaleAcrossSum (coe_sum)

/-! ## The two float words -/

/-- The word of +0.0 is the extended real zero. -/
theorem c0_eq : c0 = 0 := Ideal.ofBits_zero_f32

/-- The word 0x3F800000 is the extended real one. -/
theorem c1_eq : c1 = 1 := Ideal.ofBits_one_f32

/-! ## Real numbers inside the extended reals are closed under the operations used -/

theorem c0_real : ∃ r : ℝ, c0 = (r : EReal) := ⟨0, by rw [c0_eq, EReal.coe_zero]⟩

theorem mul_real {a b : EReal} (ha : ∃ r : ℝ, a = (r : EReal)) (hb : ∃ r : ℝ, b = (r : EReal)) :
    ∃ r : ℝ, a * b = (r : EReal) := by
  obtain ⟨r, rfl⟩ := ha
  obtain ⟨q, rfl⟩ := hb
  exact ⟨r * q, (EReal.coe_mul r q).symm⟩

theorem max_real {a b : EReal} (ha : ∃ r : ℝ, a = (r : EReal)) (hb : ∃ r : ℝ, b = (r : EReal)) :
    ∃ r : ℝ, max a b = (r : EReal) := by
  obtain ⟨r, rfl⟩ := ha
  obtain ⟨q, rfl⟩ := hb
  exact ⟨max r q, (EReal.coe_strictMono.monotone.map_max).symm⟩

/-- The reciprocal square root at a positive real is the real reciprocal square root. -/
theorem rsqrt_coe_pos {r : ℝ} (h : 0 < r) :
    Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

variable {E N : Type} [Fintype E] [Fintype N] [DecidableEq N]

/-! ## The received edges of the longer list: the received edges, and the node's own self-loop -/

theorem sum_intoR {M : Type} [AddCommMonoid M] (hit : E → Option N) (i : N) (f : E ⊕ N → M) :
    ∑ e ∈ intoR hit i, f e = ∑ e ∈ into hit i, f (Sum.inl e) + f (Sum.inr i) := by
  unfold intoR into
  rw [Finset.sum_filter, Fintype.sum_sum_type, Finset.sum_filter]
  congr 1
  simp only [hitR, Sum.elim_inr, Option.some.injEq]
  rw [Finset.sum_ite_eq' Finset.univ i (fun n => f (Sum.inr n)), if_pos (Finset.mem_univ i)]

/-! ## Degrees: both forms count (received edges) + 1, a real number ≥ 1 -/

/-- The degree as a real number. -/
def dg (hit : E → Option N) (i : N) : ℝ := ((into hit i).card : ℝ) + 1

/-- The normalisation factor as a real number. -/
def dv (hit : E → Option N) (i : N) : ℝ := (Real.sqrt (dg hit i))⁻¹

theorem one_le_dg (hit : E → Option N) (i : N) : (1 : ℝ) ≤ dg hit i := by
  unfold dg
  have : (0 : ℝ) ≤ ((into hit i).card : ℝ) := Nat.cast_nonneg _
  linarith

/-- A sum of ones over a finite set is its cardinality. -/
theorem sum_one (s : Finset E) : ∑ _e ∈ s, (1 : EReal) = ((s.card : ℝ) : EReal) := by
  have h := coe_sum s (fun _ => (1 : ℝ))
  rw [EReal.coe_one] at h
  rw [h]
  congr 1
  rw [Finset.sum_const, nsmul_eq_mul, mul_one]

theorem kdeg_eq (hit : E → Option N) (i : N) : kdeg hit i = ((dg hit i : ℝ) : EReal) := by
  unfold kdeg dg
  rw [c0_eq, c1_eq, zero_add, sum_one, EReal.coe_add, EReal.coe_one]

theorem rdeg_eq (hit : E → Option N) (i : N) : rdeg hit i = ((dg hit i : ℝ) : EReal) := by
  unfold rdeg dg
  rw [sum_intoR hit i (fun _ => c1), c0_eq, c1_eq, zero_add, sum_one, EReal.coe_add, EReal.coe_one]

theorem kdinv_eq (hit : E → Option N) (i : N) : kdinv hit i = ((dv hit i : ℝ) : EReal) := by
  unfold kdinv dv
  rw [kdeg_eq, rsqrt_coe_pos (lt_of_lt_of_le one_pos (one_le_dg hit i))]

/-- The guard of the edge-list form's factor holds and its clamp is idle: it is the folded form's factor. -/
theorem rdinv_eq (hit : E → Option N) (i : N) : rdinv hit i = ((dv hit i : ℝ) : EReal) := by
  have h1 : (1 : ℝ) ≤ dg hit i := one_le_dg hit i
  have h0 : (0 : ℝ) < dg hit i := lt_of_lt_of_le one_pos h1
  have hpos : (0 : EReal) < ((dg hit i : ℝ) : EReal) := EReal.coe_pos.mpr h0
  have hmax : max ((dg hit i : ℝ) : EReal) 1 = ((dg hit i : ℝ) : EReal) :=
    max_eq_left (by rw [← EReal.coe_one]; exact EReal.coe_le_coe_iff.mpr h1)
  unfold rdinv dv
  rw [rdeg_eq, c0_eq, c1_eq, if_pos hpos, hmax, rsqrt_coe_pos h0]

theorem kdinv_real (hit : E → Option N) (i : N) : ∃ r : ℝ, kdinv hit i = (r : EReal) :=
  ⟨dv hit i, kdinv_eq hit i⟩

/-! ## One layer: the folded form's layer is the edge-list form's layer, for real features -/

theorem layer_eq (hit : E → Option N) (row rowD : E → N) (hD : ∀ e i, hit e = some i → rowD e = i)
    (g : N → EReal) (hg : ∀ n, ∃ r : ℝ, g n = (r : EReal)) (i : N) :
    kdinv hit i * ((c0 + ∑ e ∈ into hit i, kdinv hit (row e) * g (row e)) + kdinv hit i * g i)
      = c0 + ∑ e ∈ intoR hit i, g (rowR row e) * rnorm hit row rowD e := by
  choose G hG using hg
  rw [sum_intoR]
  simp only [rnorm, rowR, rowDR, Sum.elim_inl, Sum.elim_inr, id_eq, rdinv_eq, kdinv_eq, hG, c0_eq, zero_add,
    ← EReal.coe_mul, coe_sum, ← EReal.coe_add]
  congr 1
  rw [mul_add, Finset.mul_sum]
  congr 1
  · refine Finset.sum_congr rfl fun e he => ?_
    rw [hD e i (Finset.mem_filter.mp he).2]
    ring
  · ring

/-! ## The two layers -/

section Layers

variable (hit : E → Option N) (row rowD : E → N)
variable (x : N → EReal) (w1 b1 w2 : Fin 16 → EReal)

/-- Layer 1 agrees at every node and channel. -/
theorem kh1_eq (hx : ∀ i, ∃ r : ℝ, x i = (r : EReal)) (hw1 : ∀ c, ∃ r : ℝ, w1 c = (r : EReal))
    (hD : ∀ e i, hit e = some i → rowD e = i) (i : N) (c : Fin 16) :
    kh1 hit row x w1 b1 i c = rh1 hit row rowD x w1 b1 i c :=
  congrArg (fun t => max (t + b1 c) c0)
    (layer_eq hit row rowD hD (fun n => x n * w1 c) (fun n => mul_real (hx n) (hw1 c)) i)

/-- Layer 1's output is real at every node and channel. -/
theorem kh1_real (hx : ∀ i, ∃ r : ℝ, x i = (r : EReal)) (hw1 : ∀ c, ∃ r : ℝ, w1 c = (r : EReal))
    (hb1 : ∀ c, ∃ r : ℝ, b1 c = (r : EReal)) (i : N) (c : Fin 16) :
    ∃ r : ℝ, kh1 hit row x w1 b1 i c = (r : EReal) := by
  have hs : ∀ n, ∃ r : ℝ, khs1 hit x w1 n c = (r : EReal) := fun n =>
    mul_real (kdinv_real hit n) (mul_real (hx n) (hw1 c))
  have ha : ∃ r : ℝ, kagg1 hit row x w1 i c = (r : EReal) :=
    add_real c0_real (sum_real _ _ fun e => hs (row e))
  exact max_real (add_real (mul_real (kdinv_real hit i) (add_real ha (hs i))) (hb1 c)) c0_real

/-- The contraction of layer 1's output against the second weights agrees at every node. -/
theorem kh2_eq (hx : ∀ i, ∃ r : ℝ, x i = (r : EReal)) (hw1 : ∀ c, ∃ r : ℝ, w1 c = (r : EReal))
    (hD : ∀ e i, hit e = some i → rowD e = i) (i : N) :
    kh2 hit row x w1 b1 w2 i = rhw hit row rowD x w1 b1 w2 i :=
  Finset.sum_congr rfl fun c _ => by rw [kh1_eq hit row rowD x w1 b1 hx hw1 hD i c]

/-- It is real at every node. -/
theorem kh2_real (hx : ∀ i, ∃ r : ℝ, x i = (r : EReal)) (hw1 : ∀ c, ∃ r : ℝ, w1 c = (r : EReal))
    (hb1 : ∀ c, ∃ r : ℝ, b1 c = (r : EReal)) (hw2 : ∀ c, ∃ r : ℝ, w2 c = (r : EReal)) (i : N) :
    ∃ r : ℝ, kh2 hit row x w1 b1 w2 i = (r : EReal) :=
  sum_real _ _ fun c => mul_real (kh1_real hit row x w1 b1 hx hw1 hb1 i c) (hw2 c)

end Layers

/-- The folded form and the edge-list form of the two-layer graph convolution agree on real inputs. -/
theorem kout_eq_rout {E N : Type} [Fintype E] [Fintype N] [DecidableEq N] (hit : E → Option N) (row rowD : E → N)
    (x : N → EReal) (w1 b1 w2 : Fin 16 → EReal) (b2 : EReal)
    (hx : ∀ i, ∃ r : ℝ, x i = (r : EReal)) (hw1 : ∀ c, ∃ r : ℝ, w1 c = (r : EReal))
    (hb1 : ∀ c, ∃ r : ℝ, b1 c = (r : EReal))
    (hw2 : ∀ c, ∃ r : ℝ, w2 c = (r : EReal)) (hb2 : ∃ r : ℝ, b2 = (r : EReal))
    (hD : ∀ e i, hit e = some i → rowD e = i) (i : N) :
    kout hit row x w1 b1 w2 b2 i = rout hit row rowD x w1 b1 w2 b2 i := by
  have _ := hb2
  have h2 : kh2 hit row x w1 b1 w2 = rhw hit row rowD x w1 b1 w2 :=
    funext fun n => kh2_eq hit row rowD x w1 b1 w2 hx hw1 hD n
  have hl := layer_eq hit row rowD hD (kh2 hit row x w1 b1 w2)
    (fun n => kh2_real hit row x w1 b1 w2 hx hw1 hb1 hw2 n) i
  have hr : c0 + ∑ e ∈ intoR hit i, kh2 hit row x w1 b1 w2 (rowR row e) * rnorm hit row rowD e
      = ragg2 hit row rowD x w1 b1 w2 i := by
    unfold ragg2
    rw [h2]
  exact congrArg (fun t => t + b2) (hl.trans hr)

end Cert.Gcn

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.Finite.lean ====
/-
  From the precondition "every float input is finite" to "every float input is a real number".

  The precondition is the conjunction, by `and` on one-bit words, of five tests `all(|x| < +∞)`, one per float input. It
  is stated as: the conjunction is 1. A conjunction that is 1 has every conjunct 1; an `all` (a reduction by `and` over
  every axis, from the constant 1) that is 1 had a 1 at every element; and an element test `|x| < +∞` that is 1, over
  the extended reals, says that `x` is neither `+∞` nor `-∞`, that is, a real number. The integer input takes no part.
-/
import proofs.«119362_j87720412054223_2_alg».proof.Pre_finite_inputs
import Idealize.ShloMosaic.Lib.ReduceAll
import Idealize.ShloMosaic.PureOps.Ideal
import proofs.«119362_j87720412054223_2_alg».proof.Proof.LibFiniteEReal

noncomputable section

namespace Cert.Gcn.Finite

open Idealize.ShloMosaic Cert.Pre_finite_inputs

/-- The scalar shape has one index: two of them agree on every axis because there is no axis. -/
instance : Subsingleton S_.Idx := ⟨fun a b => funext fun d => d.elim0⟩

/-- EVERY FLOAT INPUT IS REAL: where the finiteness precondition holds, each element of each of the five float inputs
    is a real number among the extended reals. -/
theorem inputs_real [Cert.Pre_finite_inputs.Facts]
    (x0 : FVec Ideal Cert.Pre_finite_inputs.S500000x1 .f32) (x1 : FVec Ideal Cert.Pre_finite_inputs.S1x16 .f32)
    (x2 : FVec Ideal Cert.Pre_finite_inputs.S16 .f32) (x3 : FVec Ideal Cert.Pre_finite_inputs.S16x1 .f32)
    (x4 : FVec Ideal Cert.Pre_finite_inputs.S1 .f32) (x5 : IVec Cert.Pre_finite_inputs.S2x5000000 32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  -- the precondition at its one index, with its chain of operations laid open
  have h0 := congrFun h (fun a => a.elim0)
  dsimp only [Cert.Pre_finite_inputs.fn, Cert.Pre_finite_inputs.fn_part1] at h0
  -- the conjunction is 1, so each of its five conjuncts is
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- each `all` that is 1 had a 1 at every element, and the element test that is 1 says the element is real
  refine ⟨fun i => ?_, fun i => ?_, fun i => ?_, fun i => ?_, fun i => ?_⟩
  · exact Cert.Lib.FiniteEReal.real_of_abs_lt (x0 i) (Host.reduce_andi_all _ _ _ _ _ e0 i)
  · exact Cert.Lib.FiniteEReal.real_of_abs_lt (x1 i) (Host.reduce_andi_all _ _ _ _ _ e1 i)
  · exact Cert.Lib.FiniteEReal.real_of_abs_lt (x2 i) (Host.reduce_andi_all _ _ _ _ _ e2 i)
  · exact Cert.Lib.FiniteEReal.real_of_abs_lt (x3 i) (Host.reduce_andi_all _ _ _ _ _ e3 i)
  · exact Cert.Lib.FiniteEReal.real_of_abs_lt (x4 i) (Host.reduce_andi_all _ _ _ _ _ e4 i)

end Cert.Gcn.Finite

end
-- ==== Proof.lean ====
/-
  The certificate of a two-layer graph convolution (500000 nodes, 5000000 edges, 1 → 16 → 1 channels) computed two ways.

  THE KERNEL folds the self-loops into dense per-node passes. With d = deg^(-1/2) and deg = (edges received) + 1, each
  layer pre-scales a node's features by d (a Pallas kernel over 100 blocks of 5000 rows), lets every edge add the
  pre-scaled row its source word selects onto the node its destination word names (a gather and a scatter-add on the
  host), adds the node's own pre-scaled row and scales by d again (the next kernel). THE REFERENCE appends one self-loop
  edge per node to the edge list, weights edge e by d(src e)·d(dst e) with a guarded d, and scatter-adds weight × feature
  over the longer list.

  At the exact instance both are functions of the six argument arrays:
    * the kernel's run ends with its result buffer at the end of a fold over @main's seven segments (Proof/KRun.lean);
      each kernel's output array is one whole-array function of what it finds (Proof/KReg0–2.lean); traced back through
      the host stretches and read at a node, the result is the folded form `Cert.Gcn.kout` (Proof/KWalk.lean, KValue.lean);
    * the reference's run ends with its result at the composed term of its 86 operations, which read at a node is the
      edge-list form `Cert.Gcn.rout` (Proof/RefEdges.lean … RefValue.lean);
    * the two forms agree when every input is a real number (Proof/GcnAlgebra.lean): the degree is a real ≥ 1, so the
      reference's guard is idle and both use the same positive real d, and d distributes over the finite sums of reals —
      the one law used that fails at the infinities, which is where the precondition "every float input is finite"
      (Proof/Finite.lean) is needed; an edge that is received is looked up at the node receiving it (Proof/Inst.lean).
  Edge words outside the node range behave alike on both sides: the accumulation drops the edge, the lookup clamps it.
  The idealization of the kernel rewrote nothing, so `preserves` has nothing to state.
-/
import proofs.«119362_j87720412054223_2_alg».proof.Defs
import proofs.«119362_j87720412054223_2_alg».proof.Proof.Gen.Kernel
import proofs.«119362_j87720412054223_2_alg».proof.Proof.Gen.Kernel.Skeleton
import proofs.«119362_j87720412054223_2_alg».proof.Proof.Gen.Kernel.Launch
import proofs.«119362_j87720412054223_2_alg».proof.Proof.Gen.Kernel.Points
import proofs.«119362_j87720412054223_2_alg».proof.Proof.Gen.Kernel.Frame
import proofs.«119362_j87720412054223_2_alg».proof.Proof.Gen.KernelIdeal
import proofs.«119362_j87720412054223_2_alg».proof.Proof.Gen.KernelIdeal.Skeleton
import proofs.«119362_j87720412054223_2_alg».proof.Proof.Gen.KernelIdeal.Launch
import proofs.«119362_j87720412054223_2_alg».proof.Proof.Gen.KernelIdeal.Points
import proofs.«119362_j87720412054223_2_alg».proof.Proof.Gen.KernelIdeal.Frame
import proofs.«119362_j87720412054223_2_alg».proof.Proof.Gen.ReferenceIdeal
import proofs.«119362_j87720412054223_2_alg».proof.Proof.Gen.Pre_finite_inputs
import proofs.«119362_j87720412054223_2_alg».proof.Proof.RefRun
import proofs.«119362_j87720412054223_2_alg».proof.Proof.RefRead
import proofs.«119362_j87720412054223_2_alg».proof.Proof.KRun
import proofs.«119362_j87720412054223_2_alg».proof.Proof.KValue
import proofs.«119362_j87720412054223_2_alg».proof.Proof.RefValue
import proofs.«119362_j87720412054223_2_alg».proof.Proof.GcnAlgebra
import proofs.«119362_j87720412054223_2_alg».proof.Proof.Finite
import proofs.«119362_j87720412054223_2_alg».proof.Proof.Inst
import Idealize.ShloMosaic.Adequacy
import Idealize.ShloMosaic.Init

noncomputable section

namespace Cert.Proof

open Idealize.ShloMosaic Idealize.ShloMosaic.ValueIdx Idealize.SL.Sem

/-- The word-level kernel runs, faults nowhere and leaves its arguments: the generated frame. -/
theorem frame_k : Cert.frame_Kernel := fun m ρ _ => Cert.Kernel.Gen.frame m ρ

/-- The same for the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments, of which every float entry is finite, both programs run, and the reference's
    result is the kernel's, node by node: the edge-list form is the folded form. -/
theorem algebraic : Cert.algebraic_KernelIdeal_ReferenceIdeal := by
  intro m ρ m' ρ' hpre hagree
  refine ⟨fun c => Cert.KernelIdeal.Gen.W7 m ρ c (Proc.devRef .tc Cert.KernelIdeal.main_v37), Cert.KernelIdeal.KRun.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.ReferenceIdeal.ReadP.val_main_v66_eq, h0, h1, h2, h3, h4, h5]
  obtain ⟨r0, r1, r2, r3, r4⟩ := Cert.Gcn.Finite.inputs_real _ _ _ _ _ _ (hpre c)
  funext i
  rw [eq_ix1 i]
  refine (Cert.Gcn.RefValue.ref_value _ _ _ _ _ _ (i 0)).trans ?_
  refine Eq.trans ?_ (Cert.KernelIdeal.KValue.result_at m ρ c (i 0)).symm
  exact (Cert.Gcn.kout_eq_rout _ _ _ _ _ _ _ _
    (fun n => r0 (ix2 n (0 : Fin 1))) (fun k => r1 (ix2 (0 : Fin 1) k)) (fun k => r2 (ix1 k))
    (fun k => r3 (ix2 k (0 : Fin 1))) (r4 (ix1 (0 : Fin 1)))
    (Cert.Gcn.Inst.rowD_of_hit _) (i 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
